-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S360448x256 : Shape := ⟨2, ![360448, 256]⟩
abbrev S337920 : Shape := ⟨1, ![337920]⟩
abbrev S20480 : Shape := ⟨1, ![20480]⟩
abbrev S256x256 : Shape := ⟨2, ![256, 256]⟩
abbrev S256 : Shape := ⟨1, ![256]⟩
abbrev S_ : Shape := ⟨0, ![]⟩

class Facts : Prop where
  bcast_S_S360448x256 : S_.BroadcastsInDim S360448x256 (![] : Fin 0 → Fin S360448x256.rank)
  reducesTo_S360448x256_S_d0_1 : S360448x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg8 : FVec F S256x256 .f32) (main_arg9 : FVec F S256 .f32) (main_arg10 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg8
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg9
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg10
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S360448x256 .f32) (main_arg1 : IVec S337920 32) (main_arg2 : IVec S337920 32) (main_arg3 : IVec S20480 32) (main_arg4 : IVec S20480 32) (main_arg5 : FVec F S256x256 .f32) (main_arg6 : FVec F S256 .f32) (main_arg7 : FVec F S256x256 .f32) (main_arg8 : FVec F S256x256 .f32) (main_arg9 : FVec F S256 .f32) (main_arg10 : FVec F S256x256 .f32) : IVec S_ 1 :=
  let main_v0 : FVec F S360448x256 .f32 := Host.absf main_arg0
  let main_cst : FVec F S_ .f32 := constant S_ .f32 0x7F800000#32
  let main_v1 : FVec F S360448x256 .f32 := broadcastInDim S360448x256 ![] bcast_S_S360448x256 main_cst
  let main_v2 : IVec S360448x256 1 := cmpf .olt main_v0 main_v1
  let main_c : IVec S_ 1 := constantI S_ 1 1#1
  let main_v3 : IVec S_ 1 := (fun x v => Host.reduce IntOp.andi x v reducesTo_S360448x256_S_d0_1 h_S_) main_v2 main_c
  let main_v4 : FVec F S256x256 .f32 := Host.absf main_arg5
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg6
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg7
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg8 main_arg9 main_arg10 main_v13 main_v16
-- ==== Kernel.lean ====
abbrev S360448x256 : Shape := ⟨2, ![360448, 256]⟩
abbrev S337920 : Shape := ⟨1, ![337920]⟩
abbrev S20480 : Shape := ⟨1, ![20480]⟩
abbrev S256x256 : Shape := ⟨2, ![256, 256]⟩
abbrev S256 : Shape := ⟨1, ![256]⟩
abbrev S_ : Shape := ⟨0, ![]⟩
abbrev S337920x1 : Shape := ⟨2, ![337920, 1]⟩
abbrev S337920x256 : Shape := ⟨2, ![337920, 256]⟩
abbrev S22528x256 : Shape := ⟨2, ![22528, 256]⟩
abbrev S22528 : Shape := ⟨1, ![22528]⟩
abbrev S22528x1 : Shape := ⟨2, ![22528, 1]⟩
abbrev S1x256 : Shape := ⟨2, ![1, 256]⟩
abbrev S1024x256 : Shape := ⟨2, ![1024, 256]⟩
abbrev S1024x1 : Shape := ⟨2, ![1024, 1]⟩
abbrev S20480x1 : Shape := ⟨2, ![20480, 1]⟩
abbrev S20480x256 : Shape := ⟨2, ![20480, 256]⟩
abbrev S2048x256 : Shape := ⟨2, ![2048, 256]⟩
abbrev S2048 : Shape := ⟨1, ![2048]⟩
abbrev S2048x1 : Shape := ⟨2, ![2048, 1]⟩

abbrev nBuf : Space → Nat
  | .hbm => 61
  | .vmem => 22
  | .smem => 0
  | _ => 0

abbrev bufTy : (tb : Table) → Fin (tcTables nBuf tb) → BufTy
  | .hbm, ⟨0, _⟩ => ⟨S360448x256, .f32⟩
  | .hbm, ⟨1, _⟩ => ⟨S337920, .i32⟩
  | .hbm, ⟨2, _⟩ => ⟨S337920, .i32⟩
  | .hbm, ⟨3, _⟩ => ⟨S20480, .i32⟩
  | .hbm, ⟨4, _⟩ => ⟨S20480, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S_, .i32⟩
  | .hbm, ⟨12, _⟩ => ⟨S337920, .i32⟩
  | .hbm, ⟨13, _⟩ => ⟨S337920, .i1⟩
  | .hbm, ⟨14, _⟩ => ⟨S_, .i32⟩
  | .hbm, ⟨15, _⟩ => ⟨S337920, .i32⟩
  | .hbm, ⟨16, _⟩ => ⟨S337920, .i32⟩
  | .hbm, ⟨17, _⟩ => ⟨S337920, .i32⟩
  | .hbm, ⟨18, _⟩ => ⟨S337920x1, .i32⟩
  | .hbm, ⟨19, _⟩ => ⟨S337920x256, .f32⟩
  | .hbm, ⟨20, _⟩ => ⟨S_, .f32⟩
  | .hbm, ⟨21, _⟩ => ⟨S22528x256, .f32⟩
  | .hbm, ⟨22, _⟩ => ⟨S337920x1, .i32⟩
  | .hbm, ⟨23, _⟩ => ⟨S22528x256, .f32⟩
  | .hbm, ⟨24, _⟩ => ⟨S_, .f32⟩
  | .hbm, ⟨25, _⟩ => ⟨S337920, .f32⟩
  | .hbm, ⟨26, _⟩ => ⟨S_, .f32⟩
  | .hbm, ⟨27, _⟩ => ⟨S22528, .f32⟩
  | .hbm, ⟨28, _⟩ => ⟨S337920x1, .i32⟩
  | .hbm, ⟨29, _⟩ => ⟨S22528, .f32⟩
  | .hbm, ⟨30, _⟩ => ⟨S22528x1, .f32⟩
  | .hbm, ⟨31, _⟩ => ⟨S22528x256, .f32⟩
  | .hbm, ⟨32, _⟩ => ⟨S256x256, .f32⟩
  | .hbm, ⟨33, _⟩ => ⟨S256x256, .f32⟩
  | .hbm, ⟨34, _⟩ => ⟨S1x256, .f32⟩
  | .hbm, ⟨35, _⟩ => ⟨S22528x256, .f32⟩
  | .hbm, ⟨36, _⟩ => ⟨S_, .i32⟩
  | .hbm, ⟨37, _⟩ => ⟨S20480, .i32⟩
  | .hbm, ⟨38, _⟩ => ⟨S20480, .i1⟩
  | .hbm, ⟨39, _⟩ => ⟨S_, .i32⟩
  | .hbm, ⟨40, _⟩ => ⟨S20480, .i32⟩
  | .hbm, ⟨41, _⟩ => ⟨S20480, .i32⟩
  | .hbm, ⟨42, _⟩ => ⟨S20480, .i32⟩
  | .hbm, ⟨43, _⟩ => ⟨S20480x1, .i32⟩
  | .hbm, ⟨44, _⟩ => ⟨S20480x256, .f32⟩
  | .hbm, ⟨45, _⟩ => ⟨S_, .f32⟩
  | .hbm, ⟨46, _⟩ => ⟨S2048x256, .f32⟩
  | .hbm, ⟨47, _⟩ => ⟨S20480x1, .i32⟩
  | .hbm, ⟨48, _⟩ => ⟨S2048x256, .f32⟩
  | .hbm, ⟨49, _⟩ => ⟨S_, .f32⟩
  | .hbm, ⟨50, _⟩ => ⟨S20480, .f32⟩
  | .hbm, ⟨51, _⟩ => ⟨S_, .f32⟩
  | .hbm, ⟨52, _⟩ => ⟨S2048, .f32⟩
  | .hbm, ⟨53, _⟩ => ⟨S20480x1, .i32⟩
  | .hbm, ⟨54, _⟩ => ⟨S2048, .f32⟩
  | .hbm, ⟨55, _⟩ => ⟨S2048x1, .f32⟩
  | .hbm, ⟨56, _⟩ => ⟨S2048x256, .f32⟩
  | .hbm, ⟨57, _⟩ => ⟨S256x256, .f32⟩
  | .hbm, ⟨58, _⟩ => ⟨S256x256, .f32⟩
  | .hbm, ⟨59, _⟩ => ⟨S1x256, .f32⟩
  | .hbm, ⟨60, _⟩ => ⟨S2048x256, .f32⟩
  | .local _ .vmem, ⟨0, _⟩ => ⟨S1024x256, .f32⟩
  | .local _ .vmem, ⟨1, _⟩ => ⟨S1024x256, .f32⟩
  | .local _ .vmem, ⟨2, _⟩ => ⟨S1024x1, .f32⟩
  | .local _ .vmem, ⟨3, _⟩ => ⟨S1024x1, .f32⟩
  | .local _ .vmem, ⟨4, _⟩ => ⟨S1024x256, .f32⟩
  | .local _ .vmem, ⟨5, _⟩ => ⟨S1024x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x1, .f32⟩
  | .local _ .vmem, ⟨14, _⟩ => ⟨S1024x1, .f32⟩
  | .local _ .vmem, ⟨15, _⟩ => ⟨S1024x256, .f32⟩
  | .local _ .vmem, ⟨16, _⟩ => ⟨S1024x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S1024x256, .f32⟩
  | .local _ .vmem, ⟨21, _⟩ => ⟨S1024x256, .f32⟩
  | _, _ => ⟨S360448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S337920 : S_.BroadcastsInDim S337920 (![] : Fin 0 → Fin S337920.rank)
  bcast_S337920_S337920x1_0 : S337920.BroadcastsInDim S337920x1 (![0] : Fin 1 → Fin S337920x1.rank)
  bcast_S_S22528x256 : S_.BroadcastsInDim S22528x256 (![] : Fin 0 → Fin S22528x256.rank)
  bcast_S_S22528 : S_.BroadcastsInDim S22528 (![] : Fin 0 → Fin S22528.rank)
  shapeCasts_S22528_S22528x1 : S22528.ShapeCasts S22528x1
  slices_S360448x256_S22528x256_0_0 : S360448x256.Slices ![0, 0] S22528x256
  transposes_S256x256_S256x256_1_0 : S256x256.Transposes [1, 0] S256x256
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bcast_S_S20480 : S_.BroadcastsInDim S20480 (![] : Fin 0 → Fin S20480.rank)
  bcast_S20480_S20480x1_0 : S20480.BroadcastsInDim S20480x1 (![0] : Fin 1 → Fin S20480x1.rank)
  bcast_S_S2048x256 : S_.BroadcastsInDim S2048x256 (![] : Fin 0 → Fin S2048x256.rank)
  bcast_S_S2048 : S_.BroadcastsInDim S2048 (![] : Fin 0 → Fin S2048.rank)
  shapeCasts_S2048_S2048x1 : S2048.ShapeCasts S2048x1
  slices_S22528x256_S2048x256_0_0 : S22528x256.Slices ![0, 0] S2048x256
  gather_S360448x256_S337920x1_S337920x256_1_0_n_n_0_1_1256_wf : GatherDims.WF S360448x256 S337920x1 S337920x256 [1] [0] [] [0] [] 1 ![1, 256]
  scatter_S22528x256_S337920x1_S337920x256_1_0_0_1_wf : ScatterDims.WF S22528x256 S337920x1 S337920x256 [1] [0] [0] 1
  scatter_S22528_S337920x1_S337920_n_0_0_1_wf : ScatterDims.WF S22528 S337920x1 S337920 [] [0] [0] 1
  dot_S1024x256_S256x256_S1024x256_1_0_0_1_n_n_wf : DotDims.WF S1024x256 S256x256 S1024x256 [1] [0] [0] [1] [] []
  gather_S22528x256_S20480x1_S20480x256_1_0_n_n_0_1_1256_wf : GatherDims.WF S22528x256 S20480x1 S20480x256 [1] [0] [] [0] [] 1 ![1, 256]
  scatter_S2048x256_S20480x1_S20480x256_1_0_0_1_wf : ScatterDims.WF S2048x256 S20480x1 S20480x256 [1] [0] [0] 1
  scatter_S2048_S20480x1_S20480_n_0_0_1_wf : ScatterDims.WF S2048 S20480x1 S20480 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S22528x256.size a
  hwx0_0 : ∀ i : grid0.Coords, EltTy.bits .f32 = 32 ∨ (Rect.block (s := S22528x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S22528x1.size a
  hwx0_1 : ∀ i : grid0.Coords, EltTy.bits .f32 = 32 ∨ (Rect.block (s := S22528x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S22528x256.size a
  hwx0_2 : ∀ i : grid0.Coords, EltTy.bits .f32 = 32 ∨ (Rect.block (s := S22528x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S22528x256.size a
  hwx0_6 : ∀ i : grid0.Coords, EltTy.bits .f32 = 32 ∨ (Rect.block (s := S22528x256) S1024x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S2048x256.size a
  hwx1_0 : ∀ i : grid1.Coords, EltTy.bits .f32 = 32 ∨ (Rect.block (s := S2048x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S2048x1.size a
  hwx1_1 : ∀ i : grid1.Coords, EltTy.bits .f32 = 32 ∨ (Rect.block (s := S2048x1) S1024x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S2048x256.size a
  hwx1_2 : ∀ i : grid1.Coords, EltTy.bits .f32 = 32 ∨ (Rect.block (s := S2048x256) S1024x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x256.size a ≤ S2048x256.size a
  hwx1_6 : ∀ i : grid1.Coords, EltTy.bits .f32 = 32 ∨ (Rect.block (s := S2048x256) S1024x256.size (cc1_transform_6 i) (hinb1_6 i)).WholeWords (EltTy.packing .f32)

variable [Facts₀]

def gather_S360448x256_S337920x1_S337920x256_1_0_n_n_0_1_1256 : GatherDims S360448x256 S337920x1 S337920x256 where
  offsetDims := [1]
  collapsedSliceDims := [0]
  operandBatchingDims := []
  startIndicesBatchingDims := []
  startIndexMap := [0]
  indexVectorDim := 1
  sliceSizes := ![1, 256]
  wf := gather_S360448x256_S337920x1_S337920x256_1_0_n_n_0_1_1256_wf
def scatter_S22528x256_S337920x1_S337920x256_1_0_0_1 : ScatterDims S22528x256 S337920x1 S337920x256 where
  updateWindowDims := [1]
  insertedWindowDims := [0]
  scatterDimsToOperandDims := [0]
  indexVectorDim := 1
  wf := scatter_S22528x256_S337920x1_S337920x256_1_0_0_1_wf
def scatter_S22528_S337920x1_S337920_n_0_0_1 : ScatterDims S22528 S337920x1 S337920 where
  updateWindowDims := []
  insertedWindowDims := [0]
  scatterDimsToOperandDims := [0]
  indexVectorDim := 1
  wf := scatter_S22528_S337920x1_S337920_n_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S22528x256_S20480x1_S20480x256_1_0_n_n_0_1_1256 : GatherDims S22528x256 S20480x1 S20480x256 where
  offsetDims := [1]
  collapsedSliceDims := [0]
  operandBatchingDims := []
  startIndicesBatchingDims := []
  startIndexMap := [0]
  indexVectorDim := 1
  sliceSizes := ![1, 256]
  wf := gather_S22528x256_S20480x1_S20480x256_1_0_n_n_0_1_1256_wf
def scatter_S2048x256_S20480x1_S20480x256_1_0_0_1 : ScatterDims S2048x256 S20480x1 S20480x256 where
  updateWindowDims := [1]
  insertedWindowDims := [0]
  scatterDimsToOperandDims := [0]
  indexVectorDim := 1
  wf := scatter_S2048x256_S20480x1_S20480x256_1_0_0_1_wf
def scatter_S2048_S20480x1_S20480_n_0_0_1 : ScatterDims S2048 S20480x1 S20480 where
  updateWindowDims := []
  insertedWindowDims := [0]
  scatterDimsToOperandDims := [0]
  indexVectorDim := 1
  wf := scatter_S2048_S20480x1_S20480_n_0_0_1_wf

abbrev win0_0 : Pipeline.Window sig grid0 :=
  Pipeline.Window.ofSpec (Memref.whole main_v9) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1024x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S1024x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S360448x256 : Shape := ⟨2, ![360448, 256]⟩
abbrev S337920 : Shape := ⟨1, ![337920]⟩
abbrev S20480 : Shape := ⟨1, ![20480]⟩
abbrev S256x256 : Shape := ⟨2, ![256, 256]⟩
abbrev S256 : Shape := ⟨1, ![256]⟩
abbrev S22528x256 : Shape := ⟨2, ![22528, 256]⟩
abbrev S_ : Shape := ⟨0, ![]⟩
abbrev S337920x1 : Shape := ⟨2, ![337920, 1]⟩
abbrev S337920x256 : Shape := ⟨2, ![337920, 256]⟩
abbrev S22528 : Shape := ⟨1, ![22528]⟩
abbrev S22528x1 : Shape := ⟨2, ![22528, 1]⟩
abbrev S1x256 : Shape := ⟨2, ![1, 256]⟩
abbrev S2048x256 : Shape := ⟨2, ![2048, 256]⟩
abbrev S20480x1 : Shape := ⟨2, ![20480, 1]⟩
abbrev S20480x256 : Shape := ⟨2, ![20480, 256]⟩
abbrev S2048 : Shape := ⟨1, ![2048]⟩
abbrev S2048x1 : Shape := ⟨2, ![2048, 1]⟩

abbrev nBuf : Space → Nat
  | .hbm => 82
  | .vmem => 0
  | .smem => 0
  | _ => 0

abbrev bufTy : (tb : Table) → Fin (tcTables nBuf tb) → BufTy
  | .hbm, ⟨0, _⟩ => ⟨S360448x256, .f32⟩
  | .hbm, ⟨1, _⟩ => ⟨S337920, .i32⟩
  | .hbm, ⟨2, _⟩ => ⟨S337920, .i32⟩
  | .hbm, ⟨3, _⟩ => ⟨S20480, .i32⟩
  | .hbm, ⟨4, _⟩ => ⟨S20480, .i32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S22528x256, .f32⟩
  | .hbm, ⟨12, _⟩ => ⟨S_, .i32⟩
  | .hbm, ⟨13, _⟩ => ⟨S337920, .i32⟩
  | .hbm, ⟨14, _⟩ => ⟨S337920, .i1⟩
  | .hbm, ⟨15, _⟩ => ⟨S_, .i32⟩
  | .hbm, ⟨16, _⟩ => ⟨S337920, .i32⟩
  | .hbm, ⟨17, _⟩ => ⟨S337920, .i32⟩
  | .hbm, ⟨18, _⟩ => ⟨S337920, .i32⟩
  | .hbm, ⟨19, _⟩ => ⟨S337920x1, .i32⟩
  | .hbm, ⟨20, _⟩ => ⟨S337920x256, .f32⟩
  | .hbm, ⟨21, _⟩ => ⟨S_, .f32⟩
  | .hbm, ⟨22, _⟩ => ⟨S22528x256, .f32⟩
  | .hbm, ⟨23, _⟩ => ⟨S337920x1, .i32⟩
  | .hbm, ⟨24, _⟩ => ⟨S22528x256, .f32⟩
  | .hbm, ⟨25, _⟩ => ⟨S_, .f32⟩
  | .hbm, ⟨26, _⟩ => ⟨S337920, .f32⟩
  | .hbm, ⟨27, _⟩ => ⟨S_, .f32⟩
  | .hbm, ⟨28, _⟩ => ⟨S22528, .f32⟩
  | .hbm, ⟨29, _⟩ => ⟨S337920x1, .i32⟩
  | .hbm, ⟨30, _⟩ => ⟨S22528, .f32⟩
  | .hbm, ⟨31, _⟩ => ⟨S_, .f32⟩
  | .hbm, ⟨32, _⟩ => ⟨S22528, .f32⟩
  | .hbm, ⟨33, _⟩ => ⟨S22528, .f32⟩
  | .hbm, ⟨34, _⟩ => ⟨S22528x1, .f32⟩
  | .hbm, ⟨35, _⟩ => ⟨S22528x256, .f32⟩
  | .hbm, ⟨36, _⟩ => ⟨S22528x256, .f32⟩
  | .hbm, ⟨37, _⟩ => ⟨S256x256, .f32⟩
  | .hbm, ⟨38, _⟩ => ⟨S22528x256, .f32⟩
  | .hbm, ⟨39, _⟩ => ⟨S1x256, .f32⟩
  | .hbm, ⟨40, _⟩ => ⟨S22528x256, .f32⟩
  | .hbm, ⟨41, _⟩ => ⟨S22528x256, .f32⟩
  | .hbm, ⟨42, _⟩ => ⟨S256x256, .f32⟩
  | .hbm, ⟨43, _⟩ => ⟨S22528x256, .f32⟩
  | .hbm, ⟨44, _⟩ => ⟨S22528x256, .f32⟩
  | .hbm, ⟨45, _⟩ => ⟨S_, .f32⟩
  | .hbm, ⟨46, _⟩ => ⟨S22528x256, .f32⟩
  | .hbm, ⟨47, _⟩ => ⟨S22528x256, .f32⟩
  | .hbm, ⟨48, _⟩ => ⟨S2048x256, .f32⟩
  | .hbm, ⟨49, _⟩ => ⟨S_, .i32⟩
  | .hbm, ⟨50, _⟩ => ⟨S20480, .i32⟩
  | .hbm, ⟨51, _⟩ => ⟨S20480, .i1⟩
  | .hbm, ⟨52, _⟩ => ⟨S_, .i32⟩
  | .hbm, ⟨53, _⟩ => ⟨S20480, .i32⟩
  | .hbm, ⟨54, _⟩ => ⟨S20480, .i32⟩
  | .hbm, ⟨55, _⟩ => ⟨S20480, .i32⟩
  | .hbm, ⟨56, _⟩ => ⟨S20480x1, .i32⟩
  | .hbm, ⟨57, _⟩ => ⟨S20480x256, .f32⟩
  | .hbm, ⟨58, _⟩ => ⟨S_, .f32⟩
  | .hbm, ⟨59, _⟩ => ⟨S2048x256, .f32⟩
  | .hbm, ⟨60, _⟩ => ⟨S20480x1, .i32⟩
  | .hbm, ⟨61, _⟩ => ⟨S2048x256, .f32⟩
  | .hbm, ⟨62, _⟩ => ⟨S_, .f32⟩
  | .hbm, ⟨63, _⟩ => ⟨S20480, .f32⟩
  | .hbm, ⟨64, _⟩ => ⟨S_, .f32⟩
  | .hbm, ⟨65, _⟩ => ⟨S2048, .f32⟩
  | .hbm, ⟨66, _⟩ => ⟨S20480x1, .i32⟩
  | .hbm, ⟨67, _⟩ => ⟨S2048, .f32⟩
  | .hbm, ⟨68, _⟩ => ⟨S_, .f32⟩
  | .hbm, ⟨69, _⟩ => ⟨S2048, .f32⟩
  | .hbm, ⟨70, _⟩ => ⟨S2048, .f32⟩
  | .hbm, ⟨71, _⟩ => ⟨S2048x1, .f32⟩
  | .hbm, ⟨72, _⟩ => ⟨S2048x256, .f32⟩
  | .hbm, ⟨73, _⟩ => ⟨S2048x256, .f32⟩
  | .hbm, ⟨74, _⟩ => ⟨S256x256, .f32⟩
  | .hbm, ⟨75, _⟩ => ⟨S2048x256, .f32⟩
  | .hbm, ⟨76, _⟩ => ⟨S1x256, .f32⟩
  | .hbm, ⟨77, _⟩ => ⟨S2048x256, .f32⟩
  | .hbm, ⟨78, _⟩ => ⟨S2048x256, .f32⟩
  | .hbm, ⟨79, _⟩ => ⟨S256x256, .f32⟩
  | .hbm, ⟨80, _⟩ => ⟨S2048x256, .f32⟩
  | .hbm, ⟨81, _⟩ => ⟨S2048x256, .f32⟩
  | _, _ => ⟨S360448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call0_cst : Ref sig .tc := ⟨.hbm, 45, rfl⟩
abbrev main_call0_v0 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]

class Facts₀ : Prop where
  slices_S360448x256_S22528x256_0_0 : S360448x256.Slices ![0, 0] S22528x256
  bcast_S_S337920 : S_.BroadcastsInDim S337920 (![] : Fin 0 → Fin S337920.rank)
  bcast_S337920_S337920x1_0 : S337920.BroadcastsInDim S337920x1 (![0] : Fin 1 → Fin S337920x1.rank)
  bcast_S_S22528x256 : S_.BroadcastsInDim S22528x256 (![] : Fin 0 → Fin S22528x256.rank)
  bcast_S_S22528 : S_.BroadcastsInDim S22528 (![] : Fin 0 → Fin S22528.rank)
  bcast_S22528_S22528x1_0 : S22528.BroadcastsInDim S22528x1 (![0] : Fin 1 → Fin S22528x1.rank)
  bcast_S22528x1_S22528x256_0_1 : S22528x1.BroadcastsInDim S22528x256 (![0, 1] : Fin 2 → Fin S22528x256.rank)
  transposes_S256x256_S256x256_1_0 : S256x256.Transposes [1, 0] S256x256
  bcast_S256_S1x256_1 : S256.BroadcastsInDim S1x256 (![1] : Fin 1 → Fin S1x256.rank)
  bcast_S1x256_S22528x256_0_1 : S1x256.BroadcastsInDim S22528x256 (![0, 1] : Fin 2 → Fin S22528x256.rank)
  slices_S22528x256_S2048x256_0_0 : S22528x256.Slices ![0, 0] S2048x256
  bcast_S_S20480 : S_.BroadcastsInDim S20480 (![] : Fin 0 → Fin S20480.rank)
  bcast_S20480_S20480x1_0 : S20480.BroadcastsInDim S20480x1 (![0] : Fin 1 → Fin S20480x1.rank)
  bcast_S_S2048x256 : S_.BroadcastsInDim S2048x256 (![] : Fin 0 → Fin S2048x256.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x256_0_1 : S2048x1.BroadcastsInDim S2048x256 (![0, 1] : Fin 2 → Fin S2048x256.rank)
  bcast_S1x256_S2048x256_0_1 : S1x256.BroadcastsInDim S2048x256 (![0, 1] : Fin 2 → Fin S2048x256.rank)
  gather_S360448x256_S337920x1_S337920x256_1_0_n_n_0_1_1256_wf : GatherDims.WF S360448x256 S337920x1 S337920x256 [1] [0] [] [0] [] 1 ![1, 256]
  scatter_S22528x256_S337920x1_S337920x256_1_0_0_1_wf : ScatterDims.WF S22528x256 S337920x1 S337920x256 [1] [0] [0] 1
  scatter_S22528_S337920x1_S337920_n_0_0_1_wf : ScatterDims.WF S22528 S337920x1 S337920 [] [0] [0] 1
  dot_S22528x256_S256x256_S22528x256_1_0_0_1_n_n_wf : DotDims.WF S22528x256 S256x256 S22528x256 [1] [0] [0] [1] [] []
  gather_S22528x256_S20480x1_S20480x256_1_0_n_n_0_1_1256_wf : GatherDims.WF S22528x256 S20480x1 S20480x256 [1] [0] [] [0] [] 1 ![1, 256]
  scatter_S2048x256_S20480x1_S20480x256_1_0_0_1_wf : ScatterDims.WF S2048x256 S20480x1 S20480x256 [1] [0] [0] 1
  scatter_S2048_S20480x1_S20480_n_0_0_1_wf : ScatterDims.WF S2048 S20480x1 S20480 [] [0] [0] 1
  dot_S2048x256_S256x256_S2048x256_1_0_0_1_n_n_wf : DotDims.WF S2048x256 S256x256 S2048x256 [1] [0] [0] [1] [] []

variable [Facts₀]

def gather_S360448x256_S337920x1_S337920x256_1_0_n_n_0_1_1256 : GatherDims S360448x256 S337920x1 S337920x256 where
  offsetDims := [1]
  collapsedSliceDims := [0]
  operandBatchingDims := []
  startIndicesBatchingDims := []
  startIndexMap := [0]
  indexVectorDim := 1
  sliceSizes := ![1, 256]
  wf := gather_S360448x256_S337920x1_S337920x256_1_0_n_n_0_1_1256_wf
def scatter_S22528x256_S337920x1_S337920x256_1_0_0_1 : ScatterDims S22528x256 S337920x1 S337920x256 where
  updateWindowDims := [1]
  insertedWindowDims := [0]
  scatterDimsToOperandDims := [0]
  indexVectorDim := 1
  wf := scatter_S22528x256_S337920x1_S337920x256_1_0_0_1_wf
def scatter_S22528_S337920x1_S337920_n_0_0_1 : ScatterDims S22528 S337920x1 S337920 where
  updateWindowDims := []
  insertedWindowDims := [0]
  scatterDimsToOperandDims := [0]
  indexVectorDim := 1
  wf := scatter_S22528_S337920x1_S337920_n_0_0_1_wf
def dot_S22528x256_S256x256_S22528x256_1_0_0_1_n_n : DotDims S22528x256 S256x256 S22528x256 where
  lhsContracting := [1]
  rhsContracting := [0]
  lhsNonContracting := [0]
  rhsNonContracting := [1]
  lhsBatch := []
  rhsBatch := []
  wf := dot_S22528x256_S256x256_S22528x256_1_0_0_1_n_n_wf
def gather_S22528x256_S20480x1_S20480x256_1_0_n_n_0_1_1256 : GatherDims S22528x256 S20480x1 S20480x256 where
  offsetDims := [1]
  collapsedSliceDims := [0]
  operandBatchingDims := []
  startIndicesBatchingDims := []
  startIndexMap := [0]
  indexVectorDim := 1
  sliceSizes := ![1, 256]
  wf := gather_S22528x256_S20480x1_S20480x256_1_0_n_n_0_1_1256_wf
def scatter_S2048x256_S20480x1_S20480x256_1_0_0_1 : ScatterDims S2048x256 S20480x1 S20480x256 where
  updateWindowDims := [1]
  insertedWindowDims := [0]
  scatterDimsToOperandDims := [0]
  indexVectorDim := 1
  wf := scatter_S2048x256_S20480x1_S20480x256_1_0_0_1_wf
def scatter_S2048_S20480x1_S20480_n_0_0_1 : ScatterDims S2048 S20480x1 S20480 where
  updateWindowDims := []
  insertedWindowDims := [0]
  scatterDimsToOperandDims := [0]
  indexVectorDim := 1
  wf := scatter_S2048_S20480x1_S20480_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

class Facts : Prop extends Facts₀ where

variable [Facts]
-- ==== Proof.KernelRun.lean ====
/-
  The idealized kernel's run with its result named.

  Every weakly fair execution of the program terminates without a fault; when it does, the result buffer holds what
  the second call's write-backs leave in it — the array after the last grid step of the second call, entered with the
  buffer contents the host operations between the two calls leave — and every argument buffer holds what it held at
  launch.  The run is the program's four segments in order (host operations, first call, host operations, second call);
  the final state holds every buffer at the last segment's exit contents, and the result buffer's entry among them is
  the second call's output array.
-/
import proofs.«127859_j40862318854556_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the second call's output array, the arguments as launched. -/
theorem run_named : θ_run defs (onTc (τ := τ) (main (F := F))) ⟨m, fun _ => 0, ρ⟩ (fun r => ∀ c : Dev nD,
      r.2.mem ((c.tc : Thread nD τ).loc main_v39) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v39 (by decide))).trans (W4_arr m ρ c 6),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Named

end
-- ==== Proof.SageLayer.lean ====
/-
  One neighbour-mean layer of a message-passing network, as a function on the extended reals.

  Row p of the layer's input is a row S(p, ·) of summed neighbour features together with the number cnt(p) of
  neighbours that were summed, and a row X(p, ·) of the node's own features.  The layer divides the sum by
  max(cnt(p), 1) — the mean, or the zero sum itself where a node has no neighbour — and applies two linear maps and a
  bias:

      out(p, f) = ( Σ_d (S(p, d) · max(cnt(p), 1)⁻¹) · WlT(d, f)  +  Σ_d X(p, d) · WrT(d, f) )  +  bl(f).

  The divisor max(cnt(p), 1) is at least one whatever cnt(p) is (a real, +∞ or −∞), so it is never zero, and the
  quotient by it is the product with its inverse: dividing the sum by it, or multiplying the sum by the quotient of
  one by it, are the same number.  No finiteness of S, cnt or X is used.
-/
import Idealize.ShloMosaic.PureOps.Ideal
import Idealize.ShloMosaic.Lib.ValueIdx
import Idealize.ShloMosaic.Lib.IdealHost

noncomputable section

namespace Cert.SageLayer

open Idealize.ShloMosaic Idealize.ShloMosaic.ValueIdx
open scoped BigOperators

/-- A count clamped below by one is not zero. -/
theorem max_one_ne_zero (c : EReal) : max c 1 ≠ 0 :=
  ne_of_gt (lt_of_lt_of_le (by exact_mod_cast (zero_lt_one (α := ℝ))) (le_max_right c 1))

/-- Dividing by the clamped count is multiplying by its inverse. -/
theorem div_max_one (a c : EReal) : Ideal.div a (max c 1) = a * (max c 1)⁻¹ := by
  rw [Ideal.div, if_neg (max_one_ne_zero c)]

/-- One over the clamped count is its inverse. -/
theorem one_div_max_one (c : EReal) : Ideal.div 1 (max c 1) = (max c 1)⁻¹ := by
  rw [div_max_one, one_mul]

/-- The layer at row p and feature f: the mean of the summed neighbour rows through WlT, plus the node's own row
    through WrT, plus the bias. -/
def layer {n : ℕ} (S : (⟨2, ![n, 256]⟩ : Shape).Idx → EReal) (cnt : Fin n → EReal)
    (X : (⟨2, ![n, 256]⟩ : Shape).Idx → EReal) (WlT : (⟨2, ![256, 256]⟩ : Shape).Idx → EReal) (bl : Fin 256 → EReal)
    (WrT : (⟨2, ![256, 256]⟩ : Shape).Idx → EReal) (p : Fin n) (f : Fin 256) : EReal :=
  (∑ d : Fin 256, (S (ix2 p d) * (max (cnt p) 1)⁻¹) * WlT (ix2 d f) + ∑ d : Fin 256, X (ix2 p d) * WrT (ix2 d f)) + bl f

/-- The layer as an array over [n, 256]. -/
def layerArr {n : ℕ} (S : (⟨2, ![n, 256]⟩ : Shape).Idx → EReal) (cnt : Fin n → EReal)
    (X : (⟨2, ![n, 256]⟩ : Shape).Idx → EReal) (WlT : (⟨2, ![256, 256]⟩ : Shape).Idx → EReal) (bl : Fin 256 → EReal)
    (WrT : (⟨2, ![256, 256]⟩ : Shape).Idx → EReal) : (⟨2, ![n, 256]⟩ : Shape).Idx → EReal :=
  fun i => layer S cnt X WlT bl WrT (i 0) (i 1)

/-- The layer followed by the rectifier max(·, 0); the zero is kept as the float word both programs print. -/
def layerReluArr {n : ℕ} (S : (⟨2, ![n, 256]⟩ : Shape).Idx → EReal) (cnt : Fin n → EReal)
    (X : (⟨2, ![n, 256]⟩ : Shape).Idx → EReal) (WlT : (⟨2, ![256, 256]⟩ : Shape).Idx → EReal) (bl : Fin 256 → EReal)
    (WrT : (⟨2, ![256, 256]⟩ : Shape).Idx → EReal) : (⟨2, ![n, 256]⟩ : Shape).Idx → EReal :=
  fun i => max (layer S cnt X WlT bl WrT (i 0) (i 1)) (Ideal.ofBits .f32 0x00000000#32)

theorem layerArr_apply {n : ℕ} (S : (⟨2, ![n, 256]⟩ : Shape).Idx → EReal) (cnt : Fin n → EReal)
    (X : (⟨2, ![n, 256]⟩ : Shape).Idx → EReal) (WlT : (⟨2, ![256, 256]⟩ : Shape).Idx → EReal) (bl : Fin 256 → EReal)
    (WrT : (⟨2, ![256, 256]⟩ : Shape).Idx → EReal) (p : Fin n) (f : Fin 256) :
    layerArr S cnt X WlT bl WrT (ix2 p f) = layer S cnt X WlT bl WrT p f := rfl

theorem layerReluArr_apply {n : ℕ} (S : (⟨2, ![n, 256]⟩ : Shape).Idx → EReal) (cnt : Fin n → EReal)
    (X : (⟨2, ![n, 256]⟩ : Shape).Idx → EReal) (WlT : (⟨2, ![256, 256]⟩ : Shape).Idx → EReal) (bl : Fin 256 → EReal)
    (WrT : (⟨2, ![256, 256]⟩ : Shape).Idx → EReal) (p : Fin n) (f : Fin 256) :
    layerReluArr S cnt X WlT bl WrT (ix2 p f)
      = max (layer S cnt X WlT bl WrT p f) (Ideal.ofBits .f32 0x00000000#32) := rfl

/-- The layer at (p, f) only reads row p of S, cnt and X and column f of the weights and the bias: two sets of arrays that
    agree there give the same value. -/
theorem layer_congr {n n' : ℕ} (S : (⟨2, ![n, 256]⟩ : Shape).Idx → EReal) (cnt : Fin n → EReal)
    (X : (⟨2, ![n, 256]⟩ : Shape).Idx → EReal) (WlT : (⟨2, ![256, 256]⟩ : Shape).Idx → EReal) (bl : Fin 256 → EReal)
    (WrT : (⟨2, ![256, 256]⟩ : Shape).Idx → EReal)
    (S' : (⟨2, ![n', 256]⟩ : Shape).Idx → EReal) (cnt' : Fin n' → EReal)
    (X' : (⟨2, ![n', 256]⟩ : Shape).Idx → EReal) (WlT' : (⟨2, ![256, 256]⟩ : Shape).Idx → EReal) (bl' : Fin 256 → EReal)
    (WrT' : (⟨2, ![256, 256]⟩ : Shape).Idx → EReal) (p : Fin n) (f : Fin 256) (p' : Fin n') (f' : Fin 256)
    (hS : ∀ d, S (ix2 p d) = S' (ix2 p' d)) (hc : cnt p = cnt' p') (hX : ∀ d, X (ix2 p d) = X' (ix2 p' d))
    (hl : ∀ d, WlT (ix2 d f) = WlT' (ix2 d f')) (hb : bl f = bl' f') (hr : ∀ d, WrT (ix2 d f) = WrT' (ix2 d f')) :
    layer S cnt X WlT bl WrT p f = layer S' cnt' X' WlT' bl' WrT' p' f' := by
  unfold layer
  rw [hc, hb]
  simp only [hS, hX, hl, hr]

end Cert.SageLayer

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelBody.lean ====
/-
  What one grid step of each call computes, entry by entry.

  A grid step loads a block of 1024 rows of the summed neighbour features, the matching 1024 entries of the neighbour
  counts (as a column), the matching 1024 rows of the nodes' own features, the two 256 by 256 weight matrices and the
  bias (as a row), and stores a block of 1024 result rows.  Read at row r and feature f, the stored value is the layer of
  SageLayer.lean at the block's own rows:

      ( Σ_d (S(r, d) · (1 / max(cnt(r), 1))) · WlT(d, f) + Σ_d X(r, d) · WrT(d, f) ) + bl(f),

  for the first call followed by max(·, 0).  The changes of float format before the two matrix products are the
  identity on the extended reals, each matrix product into a zero accumulator is its inner product, and one over the
  clamped count is the clamped count's inverse.
-/
import proofs.«127859_j40862318854556_2_alg».proof.Proof.Gen.KernelIdeal.Skeleton
import proofs.«127859_j40862318854556_2_alg».proof.Proof.SageLayer
import proofs.«127859_j40862318854556_2_alg».proof.Proof.LibInnerProducts
import proofs.«127859_j40862318854556_2_alg».proof.Proof.LibKeepdims
import Idealize.ShloMosaic.Lib.ValueLayout
import Idealize.ShloMosaic.Lib.Pipeline.Value
import Idealize.ShloMosaic.Lib.IdealHost

noncomputable section

namespace Cert.KernelIdeal.Body

open Cert.KernelIdeal Cert.KernelIdeal.Gen Idealize.ShloMosaic Idealize.ShloMosaic.ValueIdx Cert.SageLayer
open scoped BigOperators

/-- The calls' matrix products contract the left factor's columns with the right factor's rows. -/
theorem dot_plain : dot_S1024x256_S256x256_S1024x256_1_0_0_1_n_n = DotDims.plain 1024 256 256 := rfl

/-- The second call's stored value at row r, feature f of the block. -/
theorem pay_second_apply (x0 : Vec Ideal S1024x256 .f32) (x1 : Vec Ideal S1024x1 .f32) (x2 : Vec Ideal S1024x256 .f32)
    (x3 x5 : Vec Ideal S256x256 .f32) (x4 : Vec Ideal S1x256 .f32) (r : Fin 1024) (f : Fin 256) :
    k1_pay1 (F := Ideal) x0 x1 x2 x3 x5 x4 (ix2 r f)
      = layer x0 (fun p => x1 (ix2 p (0 : Fin 1))) x2 x3 (fun g => x4 (ix2 (0 : Fin 1) g)) x5 r f := by
  unfold k1_pay1 layer
  dsimp only
  rw [addf_apply, addf_apply,
    InnerProducts.matmul_zero_apply _ dot_plain none _ _ r f,
    InnerProducts.matmul_zero_apply _ dot_plain none _ _ r f,
    broadcastTo_1b_ab_apply]
  simp only [truncf_apply, mulf_apply, shapeCast_self, LibKeepdims.broadcastTo_a1_ab_apply, divf_apply,
    maximumf_apply, broadcast_apply, Ideal.ofBits_def, Ideal.ofBits_one_f32, one_div_max_one]

/-- The first call's stored value at row r, feature f of the block: the same, rectified. -/
theorem pay_first_apply (x0 : Vec Ideal S1024x256 .f32) (x1 : Vec Ideal S1024x1 .f32) (x2 : Vec Ideal S1024x256 .f32)
    (x3 x5 : Vec Ideal S256x256 .f32) (x4 : Vec Ideal S1x256 .f32) (r : Fin 1024) (f : Fin 256) :
    k0_pay1 (F := Ideal) x0 x1 x2 x3 x5 x4 (ix2 r f)
      = max (layer x0 (fun p => x1 (ix2 p (0 : Fin 1))) x2 x3 (fun g => x4 (ix2 (0 : Fin 1) g)) x5 r f)
          (Ideal.ofBits .f32 0x00000000#32) := by
  unfold k0_pay1 layer
  dsimp only
  rw [maximumf_apply, addf_apply, addf_apply,
    InnerProducts.matmul_zero_apply _ dot_plain none _ _ r f,
    InnerProducts.matmul_zero_apply _ dot_plain none _ _ r f,
    broadcastTo_1b_ab_apply]
  simp only [truncf_apply, mulf_apply, shapeCast_self, LibKeepdims.broadcastTo_a1_ab_apply, divf_apply,
    maximumf_apply, broadcast_apply, Ideal.ofBits_def, Ideal.ofBits_one_f32, one_div_max_one]

/-- The second call's stored block is the layer of the loaded blocks, as one array. -/
theorem pay_second_eq (x0 : Vec Ideal S1024x256 .f32) (x1 : Vec Ideal S1024x1 .f32) (x2 : Vec Ideal S1024x256 .f32)
    (x3 x5 : Vec Ideal S256x256 .f32) (x4 : Vec Ideal S1x256 .f32) :
    k1_pay1 (F := Ideal) x0 x1 x2 x3 x5 x4
      = layerArr x0 (fun p => x1 (ix2 p (0 : Fin 1))) x2 x3 (fun g => x4 (ix2 (0 : Fin 1) g)) x5 :=
  funext fun j => by rw [eq_ix2 j]; exact pay_second_apply x0 x1 x2 x3 x5 x4 (j 0) (j 1)

/-- The first call's stored block is the rectified layer of the loaded blocks, as one array. -/
theorem pay_first_eq (x0 : Vec Ideal S1024x256 .f32) (x1 : Vec Ideal S1024x1 .f32) (x2 : Vec Ideal S1024x256 .f32)
    (x3 x5 : Vec Ideal S256x256 .f32) (x4 : Vec Ideal S1x256 .f32) :
    k0_pay1 (F := Ideal) x0 x1 x2 x3 x5 x4
      = layerReluArr x0 (fun p => x1 (ix2 p (0 : Fin 1))) x2 x3 (fun g => x4 (ix2 (0 : Fin 1) g)) x5 :=
  funext fun j => by rw [eq_ix2 j]; exact pay_first_apply x0 x1 x2 x3 x5 x4 (j 0) (j 1)

end Cert.KernelIdeal.Body

end
-- ==== Proof.FirstCall.lean ====
/-
  The first call's result array, as one function of the six arrays the call is entered with.

  The call runs 22 grid steps; step t loads rows t·1024 … t·1024 + 1023 of the summed features, of the counts and of the
  nodes' own features, the whole of both weight matrices and of the bias, and writes rows t·1024 … t·1024 + 1023 of the
  result.  What it writes is the layer of SageLayer.lean, rectified, at those rows, and the layer at a row reads nothing but
  that row: so the block written at step t is block t of the layer of the WHOLE arrays.  The 22 blocks tile the 22528
  rows (row i is in block i / 1024), so after the call the result array is the layer of the whole arrays.
-/
import proofs.«127859_j40862318854556_2_alg».proof.Proof.Gen.KernelIdeal.Frame
import proofs.«127859_j40862318854556_2_alg».proof.Proof.KernelBody
import Idealize.ShloMosaic.Lib.Pipeline.Value

set_option maxRecDepth 16384

noncomputable section

namespace Cert.KernelIdeal.First

open Cert.KernelIdeal Cert.KernelIdeal.Gen Idealize.ShloMosaic Idealize.ShloMosaic.TcCoe Idealize.ShloMosaic.ValueIdx
open Idealize.SL.Sem Cert.SageLayer
open Idealize.ShloMosaic.Pipeline (Dat)

-- the buffer contents the call is entered with
variable (V : (c : Dev nD) → (b : Ref sig .tc) → Buf (Elt Ideal) ((c : Thread nD τ).loc b))

theorem hz : (![0, 0] : Fin 2 → Nat) = fun _ => 0 := funext fun a => by fin_cases a <;> rfl

/-- The call's result as a function of its six operand arrays: summed features, counts as a column, own features, the
    left weights, the bias as a row, the right weights. -/
abbrev result (a0 : S22528x256.Idx → Elt Ideal .f32) (a1 : S22528x1.Idx → Elt Ideal .f32) (a2 : S22528x256.Idx → Elt Ideal .f32)
    (a3 : S256x256.Idx → Elt Ideal .f32) (a4 : S1x256.Idx → Elt Ideal .f32) (a5 : S256x256.Idx → Elt Ideal .f32) :
    S22528x256.Idx → Elt Ideal .f32 :=
  layerReluArr (n := 22528) a0 (fun p => a1 (ix2 p (0 : Fin 1))) a2 a3 (fun g => a4 (ix2 (0 : Fin 1) g)) a5

/-- What a grid step leaves in the output buffer is the rectified layer of the blocks it loaded. -/
theorem out_eq (x0 : Vec Ideal S1024x256 .f32) (x1 : Vec Ideal S1024x1 .f32) (x2 : Vec Ideal S1024x256 .f32)
    (x3 : Vec Ideal S256x256 .f32) (x4 : Vec Ideal S1x256 .f32) (x5 : Vec Ideal S256x256 .f32) :
    out0_6 (F := Ideal) x0 x1 x2 x3 x4 x5
      = layerReluArr (n := 1024) x0 (fun p => x1 (ix2 p (0 : Fin 1))) x2 x3 (fun g => x4 (ix2 (0 : Fin 1) g)) x5 := by
  unfold out0_6
  rw [View.canon_unit_zero hz]
  simp only [View.ld_unit_zero (S := S1024x256) hz, View.ld_unit_zero (S := S1024x1) hz,
    View.ld_unit_zero (S := S256x256) hz, View.ld_unit_zero (S := S1x256) hz]
  exact Body.pay_first_eq x0 x1 x2 x3 x5 x4

/-- The index maps over the grid: the row-block windows (summed features, counts, own features, result) are at block
    (t, 0) at step t; the weights and the bias are at block (0, 0) throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_6.index t (0 : Fin 2) = t.val ∧ win0_6.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem N_eq : cfg0.N = 22 := rfl

/-- A row-block window: row r of block t is row t·1024 + r of the array. -/
theorem emb0 (t : Fin cfg0.N) (r : Fin 1024) (d : Fin 256) (hr : t.val * 1024 + r.val < 22528) :
    ((cfg0.win 0).blk t).view.emb (ix2 r d) = ix2 (⟨t.val * 1024 + r.val, hr⟩ : Fin 22528) d := by
  obtain ⟨e00, e01, e10, e11, e20, e21, e60, e61, e30, e31, e40, e41, e50, e51⟩ := idx_facts t
  funext a; apply Fin.ext
  match a with
  | ⟨0, _⟩ => show win0_0.index t (0 : Fin 2) * 1024 + 1 * r.val = t.val * 1024 + r.val; omega
  | ⟨1, _⟩ => show win0_0.index t (1 : Fin 2) * 256 + 1 * d.val = d.val; omega

/-- A row-block window: row r of block t is row t·1024 + r of the array. -/
theorem emb1 (t : Fin cfg0.N) (r : Fin 1024) (u : Fin 1) (hr : t.val * 1024 + r.val < 22528) :
    ((cfg0.win 1).blk t).view.emb (ix2 r u) = ix2 (⟨t.val * 1024 + r.val, hr⟩ : Fin 22528) u := by
  obtain ⟨e00, e01, e10, e11, e20, e21, e60, e61, e30, e31, e40, e41, e50, e51⟩ := idx_facts t
  funext a; apply Fin.ext
  match a with
  | ⟨0, _⟩ => show win0_1.index t (0 : Fin 2) * 1024 + 1 * r.val = t.val * 1024 + r.val; omega
  | ⟨1, _⟩ => show win0_1.index t (1 : Fin 2) * 1 + 1 * u.val = u.val; omega

/-- A row-block window: row r of block t is row t·1024 + r of the array. -/
theorem emb2 (t : Fin cfg0.N) (r : Fin 1024) (d : Fin 256) (hr : t.val * 1024 + r.val < 22528) :
    ((cfg0.win 2).blk t).view.emb (ix2 r d) = ix2 (⟨t.val * 1024 + r.val, hr⟩ : Fin 22528) d := by
  obtain ⟨e00, e01, e10, e11, e20, e21, e60, e61, e30, e31, e40, e41, e50, e51⟩ := idx_facts t
  funext a; apply Fin.ext
  match a with
  | ⟨0, _⟩ => show win0_2.index t (0 : Fin 2) * 1024 + 1 * r.val = t.val * 1024 + r.val; omega
  | ⟨1, _⟩ => show win0_2.index t (1 : Fin 2) * 256 + 1 * d.val = d.val; omega

/-- A row-block window: row r of block t is row t·1024 + r of the array. -/
theorem emb6 (t : Fin cfg0.N) (r : Fin 1024) (f : Fin 256) (hr : t.val * 1024 + r.val < 22528) :
    ((cfg0.win 6).blk t).view.emb (ix2 r f) = ix2 (⟨t.val * 1024 + r.val, hr⟩ : Fin 22528) f := by
  obtain ⟨e00, e01, e10, e11, e20, e21, e60, e61, e30, e31, e40, e41, e50, e51⟩ := idx_facts t
  funext a; apply Fin.ext
  match a with
  | ⟨0, _⟩ => show win0_6.index t (0 : Fin 2) * 1024 + 1 * r.val = t.val * 1024 + r.val; omega
  | ⟨1, _⟩ => show win0_6.index t (1 : Fin 2) * 256 + 1 * f.val = f.val; omega

/-- A window that is its whole array: the block's index is the array's. -/
theorem emb3 (t : Fin cfg0.N) (u : Fin 256) (v : Fin 256) :
    ((cfg0.win 3).blk t).view.emb (ix2 u v) = ix2 u v := by
  obtain ⟨e00, e01, e10, e11, e20, e21, e60, e61, e30, e31, e40, e41, e50, e51⟩ := idx_facts t
  funext a; apply Fin.ext
  match a with
  | ⟨0, _⟩ => show win0_3.index t (0 : Fin 2) * 256 + 1 * u.val = u.val; omega
  | ⟨1, _⟩ => show win0_3.index t (1 : Fin 2) * 256 + 1 * v.val = v.val; omega

/-- A window that is its whole array: the block's index is the array's. -/
theorem emb4 (t : Fin cfg0.N) (u : Fin 1) (v : Fin 256) :
    ((cfg0.win 4).blk t).view.emb (ix2 u v) = ix2 u v := by
  obtain ⟨e00, e01, e10, e11, e20, e21, e60, e61, e30, e31, e40, e41, e50, e51⟩ := idx_facts t
  funext a; apply Fin.ext
  match a with
  | ⟨0, _⟩ => show win0_4.index t (0 : Fin 2) * 1 + 1 * u.val = u.val; omega
  | ⟨1, _⟩ => show win0_4.index t (1 : Fin 2) * 256 + 1 * v.val = v.val; omega

/-- A window that is its whole array: the block's index is the array's. -/
theorem emb5 (t : Fin cfg0.N) (u : Fin 256) (v : Fin 256) :
    ((cfg0.win 5).blk t).view.emb (ix2 u v) = ix2 u v := by
  obtain ⟨e00, e01, e10, e11, e20, e21, e60, e61, e30, e31, e40, e41, e50, e51⟩ := idx_facts t
  funext a; apply Fin.ext
  match a with
  | ⟨0, _⟩ => show win0_5.index t (0 : Fin 2) * 256 + 1 * u.val = u.val; omega
  | ⟨1, _⟩ => show win0_5.index t (1 : Fin 2) * 256 + 1 * v.val = v.val; omega

/-- WHAT STEP t WRITES BACK is block t of the layer of the whole operand arrays. -/
theorem flushed_eq (c : Dev nD) (t : Fin cfg0.N) :
    (dat0 V c).flushed 6 t = ((cfg0.win 6).blk t).view.read (Elt Ideal)
      (result (V c main_v9) (V c main_v14) (V c main_v15) (V c main_v16) (V c main_v18) (V c main_v17)) := by
  show (cfg0.win 6).cut (grid0.coords t) ((dat0 V c).after 6 t) = _
  rw [after0_6, out_eq (iblk0 V c 0 t) (iblk0 V c 1 t) (iblk0 V c 2 t) (iblk0 V c 3 t) (iblk0 V c 4 t) (iblk0 V c 5 t)]
  funext j
  obtain ⟨r, f, rfl⟩ : ∃ (r : Fin 1024) (f : Fin 256), j = ix2 r f := ⟨j 0, j 1, eq_ix2 j⟩
  have ht : t.val < 22 := t.isLt
  have hr : t.val * 1024 + r.val < 22528 := by have := r.isLt; omega
  show layerReluArr (n := 1024) (iblk0 V c 0 t) (fun p => iblk0 V c 1 t (ix2 p (0 : Fin 1))) (iblk0 V c 2 t) (iblk0 V c 3 t)
      (fun g => iblk0 V c 4 t (ix2 (0 : Fin 1) g)) (iblk0 V c 5 t) (ix2 r f)
    = result (V c main_v9) (V c main_v14) (V c main_v15) (V c main_v16) (V c main_v18) (V c main_v17)
        (((cfg0.win 6).blk t).view.emb (ix2 r f))
  rw [emb6 t r f hr]
  refine congrArg (fun x => max x (Ideal.ofBits .f32 0x00000000#32)) ?_
  refine layer_congr _ _ _ _ _ _ _ _ _ _ _ _ r f ⟨t.val * 1024 + r.val, hr⟩ f ?_ ?_ ?_ ?_ ?_ ?_
  · intro d
    show V c main_v9 (((cfg0.win 0).blk t).view.emb (ix2 r d)) = _
    rw [emb0 t r d hr]
  · show V c main_v14 (((cfg0.win 1).blk t).view.emb (ix2 r (0 : Fin 1))) = _
    rw [emb1 t r 0 hr]
  · intro d
    show V c main_v15 (((cfg0.win 2).blk t).view.emb (ix2 r d)) = _
    rw [emb2 t r d hr]
  · intro d
    show V c main_v16 (((cfg0.win 3).blk t).view.emb (ix2 d f)) = _
    rw [emb3 t d f]
  · show V c main_v18 (((cfg0.win 4).blk t).view.emb (ix2 (0 : Fin 1) f)) = _
    rw [emb4 t 0 f]
  · intro d
    show V c main_v17 (((cfg0.win 5).blk t).view.emb (ix2 d f)) = _
    rw [emb5 t d f]

/-- An index of the result array is in step t's block iff each coordinate is in the block's range on its axis. -/
theorem mem_blk (t : Fin cfg0.N) (i : S22528x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v19).slice (win0_6.rect t)).set ↔ _
  rw [View.set_slice_whole, Rect.mem_set_unit]
  exact Iff.rfl

/-- Every row of the result is written: row i by step i / 1024. -/
theorem cover (i : S22528x256.Idx) : ∃ t : Fin cfg0.N, (cfg0.win 6).flush t = true ∧ i ∈ ((cfg0.win 6).blk t).view.set := by
  have hi0 : (i 0).val < 22528 := (i 0).isLt
  have hi1 : (i 1).val < 256 := (i 1).isLt
  have hN : cfg0.N = 22 := N_eq
  refine ⟨⟨(i 0).val / 1024, by rw [hN]; omega⟩, flush0_6 _, ?_⟩
  obtain ⟨e00, e01, e10, e11, e20, e21, e60, e61, e30, e31, e40, e41, e50, e51⟩ := idx_facts ⟨(i 0).val / 1024, by rw [hN]; omega⟩
  rw [mem_blk]
  intro a
  match a with
  | ⟨0, _⟩ =>
    show win0_6.index ⟨(i 0).val / 1024, _⟩ (0 : Fin 2) * 1024 ≤ (i 0).val ∧ (i 0).val < win0_6.index ⟨(i 0).val / 1024, _⟩ (0 : Fin 2) * 1024 + 1024
    rw [e60]; show (i 0).val / 1024 * 1024 ≤ (i 0).val ∧ (i 0).val < (i 0).val / 1024 * 1024 + 1024; omega
  | ⟨1, _⟩ =>
    show win0_6.index ⟨(i 0).val / 1024, _⟩ (1 : Fin 2) * 256 ≤ (i 1).val ∧ (i 1).val < win0_6.index ⟨(i 0).val / 1024, _⟩ (1 : Fin 2) * 256 + 256
    rw [e61]; omega

/-- THE RESULT ARRAY after the call: the rectified layer of the arrays the call was entered with. -/
theorem final (c : Dev nD) :
    (dat0 V c).arrAt 6 cfg0.N
      = result (V c main_v9) (V c main_v14) (V c main_v15) (V c main_v16) (V c main_v18) (V c main_v17) :=
  (dat0 V c).arrAt_eq_of_cover 6 _ (fun t _ => flushed_eq V c t) cover

end Cert.KernelIdeal.First

end
-- ==== Proof.SecondCall.lean ====
/-
  The second call's result array, as one function of the six arrays the call is entered with.

  The call runs 2 grid steps; step t loads rows t·1024 … t·1024 + 1023 of the summed features, of the counts and of the
  nodes' own features, the whole of both weight matrices and of the bias, and writes rows t·1024 … t·1024 + 1023 of the
  result.  What it writes is the layer of SageLayer.lean at those rows, and the layer at a row reads nothing but
  that row: so the block written at step t is block t of the layer of the WHOLE arrays.  The 2 blocks tile the 2048
  rows (row i is in block i / 1024), so after the call the result array is the layer of the whole arrays.
-/
import proofs.«127859_j40862318854556_2_alg».proof.Proof.Gen.KernelIdeal.Frame
import proofs.«127859_j40862318854556_2_alg».proof.Proof.KernelBody
import Idealize.ShloMosaic.Lib.Pipeline.Value

set_option maxRecDepth 16384

noncomputable section

namespace Cert.KernelIdeal.Second

open Cert.KernelIdeal Cert.KernelIdeal.Gen Idealize.ShloMosaic Idealize.ShloMosaic.TcCoe Idealize.ShloMosaic.ValueIdx
open Idealize.SL.Sem Cert.SageLayer
open Idealize.ShloMosaic.Pipeline (Dat)

-- the buffer contents the call is entered with
variable (V : (c : Dev nD) → (b : Ref sig .tc) → Buf (Elt Ideal) ((c : Thread nD τ).loc b))

theorem hz : (![0, 0] : Fin 2 → Nat) = fun _ => 0 := funext fun a => by fin_cases a <;> rfl

/-- The call's result as a function of its six operand arrays: summed features, counts as a column, own features, the
    left weights, the bias as a row, the right weights. -/
abbrev result (a0 : S2048x256.Idx → Elt Ideal .f32) (a1 : S2048x1.Idx → Elt Ideal .f32) (a2 : S2048x256.Idx → Elt Ideal .f32)
    (a3 : S256x256.Idx → Elt Ideal .f32) (a4 : S1x256.Idx → Elt Ideal .f32) (a5 : S256x256.Idx → Elt Ideal .f32) :
    S2048x256.Idx → Elt Ideal .f32 :=
  layerArr (n := 2048) a0 (fun p => a1 (ix2 p (0 : Fin 1))) a2 a3 (fun g => a4 (ix2 (0 : Fin 1) g)) a5

/-- What a grid step leaves in the output buffer is the layer of the blocks it loaded. -/
theorem out_eq (x0 : Vec Ideal S1024x256 .f32) (x1 : Vec Ideal S1024x1 .f32) (x2 : Vec Ideal S1024x256 .f32)
    (x3 : Vec Ideal S256x256 .f32) (x4 : Vec Ideal S1x256 .f32) (x5 : Vec Ideal S256x256 .f32) :
    out1_6 (F := Ideal) x0 x1 x2 x3 x4 x5
      = layerArr (n := 1024) x0 (fun p => x1 (ix2 p (0 : Fin 1))) x2 x3 (fun g => x4 (ix2 (0 : Fin 1) g)) x5 := by
  unfold out1_6
  rw [View.canon_unit_zero hz]
  simp only [View.ld_unit_zero (S := S1024x256) hz, View.ld_unit_zero (S := S1024x1) hz,
    View.ld_unit_zero (S := S256x256) hz, View.ld_unit_zero (S := S1x256) hz]
  exact Body.pay_second_eq x0 x1 x2 x3 x5 x4

/-- The index maps over the grid: the row-block windows (summed features, counts, own features, result) are at block
    (t, 0) at step t; the weights and the bias are at block (0, 0) throughout. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_6.index t (0 : Fin 2) = t.val ∧ win1_6.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem N_eq : cfg1.N = 2 := rfl

/-- A row-block window: row r of block t is row t·1024 + r of the array. -/
theorem emb0 (t : Fin cfg1.N) (r : Fin 1024) (d : Fin 256) (hr : t.val * 1024 + r.val < 2048) :
    ((cfg1.win 0).blk t).view.emb (ix2 r d) = ix2 (⟨t.val * 1024 + r.val, hr⟩ : Fin 2048) d := by
  obtain ⟨e00, e01, e10, e11, e20, e21, e60, e61, e30, e31, e40, e41, e50, e51⟩ := idx_facts t
  funext a; apply Fin.ext
  match a with
  | ⟨0, _⟩ => show win1_0.index t (0 : Fin 2) * 1024 + 1 * r.val = t.val * 1024 + r.val; omega
  | ⟨1, _⟩ => show win1_0.index t (1 : Fin 2) * 256 + 1 * d.val = d.val; omega

/-- A row-block window: row r of block t is row t·1024 + r of the array. -/
theorem emb1 (t : Fin cfg1.N) (r : Fin 1024) (u : Fin 1) (hr : t.val * 1024 + r.val < 2048) :
    ((cfg1.win 1).blk t).view.emb (ix2 r u) = ix2 (⟨t.val * 1024 + r.val, hr⟩ : Fin 2048) u := by
  obtain ⟨e00, e01, e10, e11, e20, e21, e60, e61, e30, e31, e40, e41, e50, e51⟩ := idx_facts t
  funext a; apply Fin.ext
  match a with
  | ⟨0, _⟩ => show win1_1.index t (0 : Fin 2) * 1024 + 1 * r.val = t.val * 1024 + r.val; omega
  | ⟨1, _⟩ => show win1_1.index t (1 : Fin 2) * 1 + 1 * u.val = u.val; omega

/-- A row-block window: row r of block t is row t·1024 + r of the array. -/
theorem emb2 (t : Fin cfg1.N) (r : Fin 1024) (d : Fin 256) (hr : t.val * 1024 + r.val < 2048) :
    ((cfg1.win 2).blk t).view.emb (ix2 r d) = ix2 (⟨t.val * 1024 + r.val, hr⟩ : Fin 2048) d := by
  obtain ⟨e00, e01, e10, e11, e20, e21, e60, e61, e30, e31, e40, e41, e50, e51⟩ := idx_facts t
  funext a; apply Fin.ext
  match a with
  | ⟨0, _⟩ => show win1_2.index t (0 : Fin 2) * 1024 + 1 * r.val = t.val * 1024 + r.val; omega
  | ⟨1, _⟩ => show win1_2.index t (1 : Fin 2) * 256 + 1 * d.val = d.val; omega

/-- A row-block window: row r of block t is row t·1024 + r of the array. -/
theorem emb6 (t : Fin cfg1.N) (r : Fin 1024) (f : Fin 256) (hr : t.val * 1024 + r.val < 2048) :
    ((cfg1.win 6).blk t).view.emb (ix2 r f) = ix2 (⟨t.val * 1024 + r.val, hr⟩ : Fin 2048) f := by
  obtain ⟨e00, e01, e10, e11, e20, e21, e60, e61, e30, e31, e40, e41, e50, e51⟩ := idx_facts t
  funext a; apply Fin.ext
  match a with
  | ⟨0, _⟩ => show win1_6.index t (0 : Fin 2) * 1024 + 1 * r.val = t.val * 1024 + r.val; omega
  | ⟨1, _⟩ => show win1_6.index t (1 : Fin 2) * 256 + 1 * f.val = f.val; omega

/-- A window that is its whole array: the block's index is the array's. -/
theorem emb3 (t : Fin cfg1.N) (u : Fin 256) (v : Fin 256) :
    ((cfg1.win 3).blk t).view.emb (ix2 u v) = ix2 u v := by
  obtain ⟨e00, e01, e10, e11, e20, e21, e60, e61, e30, e31, e40, e41, e50, e51⟩ := idx_facts t
  funext a; apply Fin.ext
  match a with
  | ⟨0, _⟩ => show win1_3.index t (0 : Fin 2) * 256 + 1 * u.val = u.val; omega
  | ⟨1, _⟩ => show win1_3.index t (1 : Fin 2) * 256 + 1 * v.val = v.val; omega

/-- A window that is its whole array: the block's index is the array's. -/
theorem emb4 (t : Fin cfg1.N) (u : Fin 1) (v : Fin 256) :
    ((cfg1.win 4).blk t).view.emb (ix2 u v) = ix2 u v := by
  obtain ⟨e00, e01, e10, e11, e20, e21, e60, e61, e30, e31, e40, e41, e50, e51⟩ := idx_facts t
  funext a; apply Fin.ext
  match a with
  | ⟨0, _⟩ => show win1_4.index t (0 : Fin 2) * 1 + 1 * u.val = u.val; omega
  | ⟨1, _⟩ => show win1_4.index t (1 : Fin 2) * 256 + 1 * v.val = v.val; omega

/-- A window that is its whole array: the block's index is the array's. -/
theorem emb5 (t : Fin cfg1.N) (u : Fin 256) (v : Fin 256) :
    ((cfg1.win 5).blk t).view.emb (ix2 u v) = ix2 u v := by
  obtain ⟨e00, e01, e10, e11, e20, e21, e60, e61, e30, e31, e40, e41, e50, e51⟩ := idx_facts t
  funext a; apply Fin.ext
  match a with
  | ⟨0, _⟩ => show win1_5.index t (0 : Fin 2) * 256 + 1 * u.val = u.val; omega
  | ⟨1, _⟩ => show win1_5.index t (1 : Fin 2) * 256 + 1 * v.val = v.val; omega

/-- WHAT STEP t WRITES BACK is block t of the layer of the whole operand arrays. -/
theorem flushed_eq (c : Dev nD) (t : Fin cfg1.N) :
    (dat1 V c).flushed 6 t = ((cfg1.win 6).blk t).view.read (Elt Ideal)
      (result (V c main_v29) (V c main_v34) (V c main_v35) (V c main_v36) (V c main_v38) (V c main_v37)) := by
  show (cfg1.win 6).cut (grid1.coords t) ((dat1 V c).after 6 t) = _
  rw [after1_6, out_eq (iblk1 V c 0 t) (iblk1 V c 1 t) (iblk1 V c 2 t) (iblk1 V c 3 t) (iblk1 V c 4 t) (iblk1 V c 5 t)]
  funext j
  obtain ⟨r, f, rfl⟩ : ∃ (r : Fin 1024) (f : Fin 256), j = ix2 r f := ⟨j 0, j 1, eq_ix2 j⟩
  have ht : t.val < 2 := t.isLt
  have hr : t.val * 1024 + r.val < 2048 := by have := r.isLt; omega
  show layerArr (n := 1024) (iblk1 V c 0 t) (fun p => iblk1 V c 1 t (ix2 p (0 : Fin 1))) (iblk1 V c 2 t) (iblk1 V c 3 t)
      (fun g => iblk1 V c 4 t (ix2 (0 : Fin 1) g)) (iblk1 V c 5 t) (ix2 r f)
    = result (V c main_v29) (V c main_v34) (V c main_v35) (V c main_v36) (V c main_v38) (V c main_v37)
        (((cfg1.win 6).blk t).view.emb (ix2 r f))
  rw [emb6 t r f hr]
  refine layer_congr _ _ _ _ _ _ _ _ _ _ _ _ r f ⟨t.val * 1024 + r.val, hr⟩ f ?_ ?_ ?_ ?_ ?_ ?_
  · intro d
    show V c main_v29 (((cfg1.win 0).blk t).view.emb (ix2 r d)) = _
    rw [emb0 t r d hr]
  · show V c main_v34 (((cfg1.win 1).blk t).view.emb (ix2 r (0 : Fin 1))) = _
    rw [emb1 t r 0 hr]
  · intro d
    show V c main_v35 (((cfg1.win 2).blk t).view.emb (ix2 r d)) = _
    rw [emb2 t r d hr]
  · intro d
    show V c main_v36 (((cfg1.win 3).blk t).view.emb (ix2 d f)) = _
    rw [emb3 t d f]
  · show V c main_v38 (((cfg1.win 4).blk t).view.emb (ix2 (0 : Fin 1) f)) = _
    rw [emb4 t 0 f]
  · intro d
    show V c main_v37 (((cfg1.win 5).blk t).view.emb (ix2 d f)) = _
    rw [emb5 t d f]

/-- An index of the result array is in step t's block iff each coordinate is in the block's range on its axis. -/
theorem mem_blk (t : Fin cfg1.N) (i : S2048x256.Idx) :
    i ∈ ((cfg1.win 6).blk t).view.set ↔ ∀ a : Fin 2, win1_6.index t a * S1024x256.size a ≤ (i a).val ∧ (i a).val < win1_6.index t a * S1024x256.size a + S1024x256.size a := by
  show i ∈ ((View.whole main_v39).slice (win1_6.rect t)).set ↔ _
  rw [View.set_slice_whole, Rect.mem_set_unit]
  exact Iff.rfl

/-- Every row of the result is written: row i by step i / 1024. -/
theorem cover (i : S2048x256.Idx) : ∃ t : Fin cfg1.N, (cfg1.win 6).flush t = true ∧ i ∈ ((cfg1.win 6).blk t).view.set := by
  have hi0 : (i 0).val < 2048 := (i 0).isLt
  have hi1 : (i 1).val < 256 := (i 1).isLt
  have hN : cfg1.N = 2 := N_eq
  refine ⟨⟨(i 0).val / 1024, by rw [hN]; omega⟩, flush1_6 _, ?_⟩
  obtain ⟨e00, e01, e10, e11, e20, e21, e60, e61, e30, e31, e40, e41, e50, e51⟩ := idx_facts ⟨(i 0).val / 1024, by rw [hN]; omega⟩
  rw [mem_blk]
  intro a
  match a with
  | ⟨0, _⟩ =>
    show win1_6.index ⟨(i 0).val / 1024, _⟩ (0 : Fin 2) * 1024 ≤ (i 0).val ∧ (i 0).val < win1_6.index ⟨(i 0).val / 1024, _⟩ (0 : Fin 2) * 1024 + 1024
    rw [e60]; show (i 0).val / 1024 * 1024 ≤ (i 0).val ∧ (i 0).val < (i 0).val / 1024 * 1024 + 1024; omega
  | ⟨1, _⟩ =>
    show win1_6.index ⟨(i 0).val / 1024, _⟩ (1 : Fin 2) * 256 ≤ (i 1).val ∧ (i 1).val < win1_6.index ⟨(i 0).val / 1024, _⟩ (1 : Fin 2) * 256 + 256
    rw [e61]; omega

/-- THE RESULT ARRAY after the call: the layer of the arrays the call was entered with. -/
theorem final (c : Dev nD) :
    (dat1 V c).arrAt 6 cfg1.N
      = result (V c main_v29) (V c main_v34) (V c main_v35) (V c main_v36) (V c main_v38) (V c main_v37) :=
  (dat1 V c).arrAt_eq_of_cover 6 _ (fun t _ => flushed_eq V c t) cover

end Cert.KernelIdeal.Second

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.HostLayer.lean ====
/-
  The reference's layer, as the host computes it, is the layer of SageLayer.lean.

  The host divides the summed neighbour features by the clamped count broadcast over the 256 features, multiplies by the
  left weights, adds the bias broadcast over the rows, and then adds the product of the nodes' own features with the
  right weights:

      ( Σ_d (S(p, d) / max(cnt(p), 1)) · WlT(d, f) + bl(f) ) + Σ_d X(p, d) · WrT(d, f).

  The quotient by the clamped count is the product with its inverse (the clamped count is never zero), and the three
  summands are regrouped by commutativity and associativity of addition on the extended reals, which hold at the
  infinities too: no finiteness is used.
-/
import Idealize.ShloMosaic.PureOps.Ideal.Laws
import Idealize.ShloMosaic.Lib.ValueIdx
import Idealize.ShloMosaic.Lib.IdealHost
import proofs.«127859_j40862318854556_2_alg».proof.Proof.SageLayer
import proofs.«127859_j40862318854556_2_alg».proof.Proof.LibInnerProducts
import proofs.«127859_j40862318854556_2_alg».proof.Proof.LibInDimLayout
import proofs.«127859_j40862318854556_2_alg».proof.Proof.LibInDimRow

noncomputable section

namespace Cert.HostLayer

open Idealize.ShloMosaic Idealize.ShloMosaic.ValueIdx Cert.SageLayer
open scoped BigOperators

/-- The host's layer over arrays of n rows: the term both layers of the reference are instances of. -/
def hostLayer {n : ℕ} (D : DotDims ⟨2, ![n, 256]⟩ ⟨2, ![256, 256]⟩ ⟨2, ![n, 256]⟩)
    (h1 : (⟨0, ![]⟩ : Shape).BroadcastsInDim ⟨1, ![n]⟩ ![])
    (h2 : (⟨1, ![n]⟩ : Shape).BroadcastsInDim ⟨2, ![n, 1]⟩ ![0])
    (h3 : (⟨2, ![n, 1]⟩ : Shape).BroadcastsInDim ⟨2, ![n, 256]⟩ ![0, 1])
    (h4 : (⟨1, ![256]⟩ : Shape).BroadcastsInDim ⟨2, ![1, 256]⟩ ![1])
    (h5 : (⟨2, ![1, 256]⟩ : Shape).BroadcastsInDim ⟨2, ![n, 256]⟩ ![0, 1])
    (S : FVec Ideal ⟨2, ![n, 256]⟩ .f32) (C : FVec Ideal ⟨1, ![n]⟩ .f32) (X : FVec Ideal ⟨2, ![n, 256]⟩ .f32)
    (WlT : FVec Ideal ⟨2, ![256, 256]⟩ .f32) (B : FVec Ideal ⟨1, ![256]⟩ .f32) (WrT : FVec Ideal ⟨2, ![256, 256]⟩ .f32) :
    FVec Ideal ⟨2, ![n, 256]⟩ .f32 :=
  addf (addf (Host.dotGeneral D none
      (Host.divf S (broadcastInDim ⟨2, ![n, 256]⟩ ![0, 1] h3 (broadcastInDim ⟨2, ![n, 1]⟩ ![0] h2
        (maximumf C (broadcastInDim ⟨1, ![n]⟩ ![] h1 (constant (F := Ideal) ⟨0, ![]⟩ .f32 0x3F800000#32)))))) WlT)
    (broadcastInDim ⟨2, ![n, 256]⟩ ![0, 1] h5 (broadcastInDim ⟨2, ![1, 256]⟩ ![1] h4 B)))
    (Host.dotGeneral D none X WrT)

/-- The host's layer is the layer. -/
theorem hostLayer_eq {n : ℕ} (D : DotDims ⟨2, ![n, 256]⟩ ⟨2, ![256, 256]⟩ ⟨2, ![n, 256]⟩) (hD : D = DotDims.plain n 256 256)
    (h1 : (⟨0, ![]⟩ : Shape).BroadcastsInDim ⟨1, ![n]⟩ ![])
    (h2 : (⟨1, ![n]⟩ : Shape).BroadcastsInDim ⟨2, ![n, 1]⟩ ![0])
    (h3 : (⟨2, ![n, 1]⟩ : Shape).BroadcastsInDim ⟨2, ![n, 256]⟩ ![0, 1])
    (h4 : (⟨1, ![256]⟩ : Shape).BroadcastsInDim ⟨2, ![1, 256]⟩ ![1])
    (h5 : (⟨2, ![1, 256]⟩ : Shape).BroadcastsInDim ⟨2, ![n, 256]⟩ ![0, 1])
    (S : FVec Ideal ⟨2, ![n, 256]⟩ .f32) (C : FVec Ideal ⟨1, ![n]⟩ .f32) (X : FVec Ideal ⟨2, ![n, 256]⟩ .f32)
    (WlT : FVec Ideal ⟨2, ![256, 256]⟩ .f32) (B : FVec Ideal ⟨1, ![256]⟩ .f32) (WrT : FVec Ideal ⟨2, ![256, 256]⟩ .f32) :
    hostLayer D h1 h2 h3 h4 h5 S C X WlT B WrT
      = layerArr S (fun p => C (ix1 p)) X WlT (fun g => B (ix1 g)) WrT := by
  funext i
  obtain ⟨p, f, rfl⟩ : ∃ (p : Fin n) (f : Fin 256), i = ix2 p f := ⟨i 0, i 1, eq_ix2 i⟩
  rw [layerArr_apply]
  unfold hostLayer layer
  rw [addf_apply, addf_apply, InnerProducts.dotGeneral_apply D hD none _ _ p f,
    InnerProducts.dotGeneral_apply D hD none _ _ p f,
    LibInDimRow.inDim_1b_ab_apply, LibInDimRow.inDim_b_1b_apply]
  have hden : ∀ d : Fin 256,
      broadcastInDim ⟨2, ![n, 256]⟩ ![0, 1] h3 (broadcastInDim ⟨2, ![n, 1]⟩ ![0] h2
        (maximumf C (broadcastInDim ⟨1, ![n]⟩ ![] h1 (constant (F := Ideal) ⟨0, ![]⟩ .f32 0x3F800000#32)))) (ix2 p d)
        = max (C (ix1 p)) 1 := by
    intro d
    rw [LibInDimLayout.inDim_a1_ab_apply, LibInDimLayout.inDim_a_a1_apply, maximumf_apply,
      broadcastInDim_scalar_apply, constant_apply, Ideal.ofBits_one_f32]
  simp only [hostDivf_apply, hden, div_max_one]
  exact add_right_comm (_ : EReal) _ _

/-- The host's layer followed by the host's rectifier is the rectified layer. -/
theorem hostLayer_relu_eq {n : ℕ} (D : DotDims ⟨2, ![n, 256]⟩ ⟨2, ![256, 256]⟩ ⟨2, ![n, 256]⟩) (hD : D = DotDims.plain n 256 256)
    (h0 : (⟨0, ![]⟩ : Shape).BroadcastsInDim ⟨2, ![n, 256]⟩ ![])
    (h1 : (⟨0, ![]⟩ : Shape).BroadcastsInDim ⟨1, ![n]⟩ ![])
    (h2 : (⟨1, ![n]⟩ : Shape).BroadcastsInDim ⟨2, ![n, 1]⟩ ![0])
    (h3 : (⟨2, ![n, 1]⟩ : Shape).BroadcastsInDim ⟨2, ![n, 256]⟩ ![0, 1])
    (h4 : (⟨1, ![256]⟩ : Shape).BroadcastsInDim ⟨2, ![1, 256]⟩ ![1])
    (h5 : (⟨2, ![1, 256]⟩ : Shape).BroadcastsInDim ⟨2, ![n, 256]⟩ ![0, 1])
    (S : FVec Ideal ⟨2, ![n, 256]⟩ .f32) (C : FVec Ideal ⟨1, ![n]⟩ .f32) (X : FVec Ideal ⟨2, ![n, 256]⟩ .f32)
    (WlT : FVec Ideal ⟨2, ![256, 256]⟩ .f32) (B : FVec Ideal ⟨1, ![256]⟩ .f32) (WrT : FVec Ideal ⟨2, ![256, 256]⟩ .f32) :
    maximumf (hostLayer D h1 h2 h3 h4 h5 S C X WlT B WrT)
        (broadcastInDim ⟨2, ![n, 256]⟩ ![] h0 (constant (F := Ideal) ⟨0, ![]⟩ .f32 0x00000000#32))
      = layerReluArr S (fun p => C (ix1 p)) X WlT (fun g => B (ix1 g)) WrT := by
  rw [hostLayer_eq D hD]
  funext i
  rw [maximumf_apply, broadcastInDim_scalar_apply, constant_apply]
  rfl

end Cert.HostLayer

end
-- ==== Proof.RefLayers.lean ====
/-
  The reference's two layers are the layer of SageLayer.lean.

  The reference's program is read one operation at a time: each stage is a function of the program's arguments.  Its
  first layer's result (the stage after the rectifier) is the rectified layer of the first summed features, counts,
  leading rows of x, and first weights and bias; its final result is the layer of the second summed features (summed from
  the first layer's result), the second counts, the first layer's leading rows, and the second weights and bias.  The
  summed features and the counts are scatter-additions; nothing here opens them: they are the same functions of the
  arguments on the kernel's side.
-/
import proofs.«127859_j40862318854556_2_alg».proof.Proof.Gen.ReferenceIdeal.Read
import proofs.«127859_j40862318854556_2_alg».proof.Proof.HostLayer

noncomputable section

namespace Cert.ReferenceIdeal.Layers

open Cert.ReferenceIdeal Cert.ReferenceIdeal.Gen Cert.ReferenceIdeal.Read Idealize.ShloMosaic Idealize.ShloMosaic.ValueIdx Cert.SageLayer Cert.HostLayer

theorem dot_first_plain : dot_S22528x256_S256x256_S22528x256_1_0_0_1_n_n = DotDims.plain 22528 256 256 := rfl
theorem dot_second_plain : dot_S2048x256_S256x256_S2048x256_1_0_0_1_n_n = DotDims.plain 2048 256 256 := rfl

/-- The first layer's result, after the rectifier: the rectified layer of the first summed features and counts (both
    scatter-additions along dst0), the leading rows of x, and the first weights and bias. -/
theorem first_layer (x0 : (⟨S360448x256, .f32⟩ : BufTy).Contents (Elt Ideal)) (x1 x2 : (⟨S337920, .i32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) :
    val_main_v28 (F := Ideal) x0 x1 x2 x5 x6 x7
      = layerReluArr (n := 22528) (val_main_v10 (F := Ideal) x0 x1 x2) (fun p => val_main_v14 (F := Ideal) x2 (ix1 p))
          (val_main_v0 (F := Ideal) x0) (val_main_v20 (F := Ideal) x5) (fun g => x6 (ix1 g)) (val_main_v25 (F := Ideal) x7) := by
  unfold val_main_v28 val_main_v27 val_main_v24 val_main_v21 val_main_v19 val_main_v18 val_main_v17 val_main_v16
    val_main_v15 val_main_cst_3 val_main_v23 val_main_v22 val_main_v26 val_main_call0_v0 val_main_call0_cst
  exact hostLayer_relu_eq (n := 22528) dot_S22528x256_S256x256_S22528x256_1_0_0_1_n_n dot_first_plain
    bcast_S_S22528x256 bcast_S_S22528 bcast_S22528_S22528x1_0 bcast_S22528x1_S22528x256_0_1 bcast_S256_S1x256_1
    bcast_S1x256_S22528x256_0_1 _ _ _ _ _ _

/-- The final result: the layer of the second summed features and counts (scatter-additions along dst1), the first
    layer's leading rows, and the second weights and bias. -/
theorem second_layer (x0 : (⟨S360448x256, .f32⟩ : BufTy).Contents (Elt Ideal)) (x1 x2 : (⟨S337920, .i32⟩ : BufTy).Contents (Elt Ideal))
    (x3 x4 : (⟨S20480, .i32⟩ : BufTy).Contents (Elt Ideal))
    (x5 : (⟨S256x256, .f32⟩ : BufTy).Contents (Elt Ideal)) (x6 : (⟨S256, .f32⟩ : BufTy).Contents (Elt Ideal))
    (x7 x8 : (⟨S256x256, .f32⟩ : BufTy).Contents (Elt Ideal)) (x9 : (⟨S256, .f32⟩ : BufTy).Contents (Elt Ideal))
    (x10 : (⟨S256x256, .f32⟩ : BufTy).Contents (Elt Ideal)) :
    val_main_v56 (F := Ideal) x0 x1 x2 x3 x4 x5 x6 x7 x8 x9 x10
      = layerArr (n := 2048) (val_main_v39 (F := Ideal) x0 x1 x2 x3 x4 x5 x6 x7) (fun p => val_main_v43 (F := Ideal) x4 (ix1 p))
          (val_main_v29 (F := Ideal) x0 x1 x2 x5 x6 x7) (val_main_v49 (F := Ideal) x8) (fun g => x9 (ix1 g))
          (val_main_v54 (F := Ideal) x10) := by
  unfold val_main_v56 val_main_v53 val_main_v50 val_main_v48 val_main_v47 val_main_v46 val_main_v45 val_main_v44
    val_main_cst_9 val_main_v52 val_main_v51 val_main_v55
  exact hostLayer_eq (n := 2048) dot_S2048x256_S256x256_S2048x256_1_0_0_1_n_n dot_second_plain
    bcast_S_S2048 bcast_S2048_S2048x1_0 bcast_S2048x1_S2048x256_0_1 bcast_S256_S1x256_1 bcast_S1x256_S2048x256_0_1
    _ _ _ _ _ _

end Cert.ReferenceIdeal.Layers

end
-- ==== Proof.HostGlue.lean ====
/-
  The idealized kernel's result is the reference's function of the arguments.

  Before the first call the host gathers rows of x along src0 and scatter-adds them along dst0 (the summed features),
  scatter-adds ones along dst0 (the counts, recast as a column), slices the leading rows of x, transposes the two
  weight matrices and recasts the bias as a row.  These are operation for operation the reference's own stages, so the
  first call is entered with the reference's stage values, and its result — the rectified layer of them — is the
  reference's first layer.  Between the calls the host does the same along src1 and dst1 from the first call's
  result; the second call's result, the layer of those, is the reference's final result.  A count column read at
  (p, 0) is the count vector at p, and a bias row read at (0, f) is the bias vector at f.
-/
import proofs.«127859_j40862318854556_2_alg».proof.Proof.Gen.KernelIdeal.Frame
import proofs.«127859_j40862318854556_2_alg».proof.Proof.FirstCall
import proofs.«127859_j40862318854556_2_alg».proof.Proof.SecondCall
import proofs.«127859_j40862318854556_2_alg».proof.Proof.RefLayers
import proofs.«127859_j40862318854556_2_alg».proof.Proof.LibKeepdims
import Idealize.ShloMosaic.Lib.ValueLayout
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.ValueIdx
open Idealize.SL.Sem Idealize.ShloMosaic.StableHlo Cert.SageLayer Cert.ReferenceIdeal.Read

variable (m : (ℓ : Loc nD τ sig) → Buf (Elt Ideal) ℓ) (ρ : Dev nD → PrngReg) (c : Dev nD)

/-! ## What the first call is entered with -/

/-- The summed features: x gathered along src0 and scatter-added along dst0. -/
theorem first_summed : V1 m ρ c main_v9 = val_main_v10 (F := Ideal) (m ((c : Thread nD τ).loc main_arg0)) (m ((c : Thread nD τ).loc main_arg1)) (m ((c : Thread nD τ).loc main_arg2)) := by
  show StableHlo.after hostOps0 (W0 m ρ c) (Proc.devRef .tc main_v9) = _
  after_results
  rfl

/-- The counts, as a column: ones scatter-added along dst0, recast. -/
theorem first_counts :
    V1 m ρ c main_v14 = shapeCast S22528x1 (val_main_v14 (F := Ideal) (m ((c : Thread nD τ).loc main_arg2))) shapeCasts_S22528_S22528x1 := by
  show StableHlo.after hostOps0 (W0 m ρ c) (Proc.devRef .tc main_v14) = _
  after_results
  rfl

/-- The nodes' own features: the leading rows of x. -/
theorem first_own : V1 m ρ c main_v15 = val_main_v0 (F := Ideal) (m ((c : Thread nD τ).loc main_arg0)) := by
  show StableHlo.after hostOps0 (W0 m ρ c) (Proc.devRef .tc main_v15) = _
  after_results
  rfl

/-- The left weights, transposed. -/
theorem first_left : V1 m ρ c main_v16 = val_main_v20 (F := Ideal) (m ((c : Thread nD τ).loc main_arg5)) := by
  show StableHlo.after hostOps0 (W0 m ρ c) (Proc.devRef .tc main_v16) = _
  after_results
  rfl

/-- The right weights, transposed. -/
theorem first_right : V1 m ρ c main_v17 = val_main_v25 (F := Ideal) (m ((c : Thread nD τ).loc main_arg7)) := by
  show StableHlo.after hostOps0 (W0 m ρ c) (Proc.devRef .tc main_v17) = _
  after_results
  rfl

/-- The bias, as a row. -/
theorem first_bias : V1 m ρ c main_v18 = shapeCast S1x256 (m ((c : Thread nD τ).loc main_arg6)) shapeCasts_S256_S1x256 := by
  show StableHlo.after hostOps0 (W0 m ρ c) (Proc.devRef .tc main_v18) = _
  after_results
  rfl

/-- The count column at (p, 0) is the count of node p. -/
theorem first_counts_at (p : Fin 22528) :
    V1 m ρ c main_v14 (ix2 p (0 : Fin 1)) = val_main_v14 (F := Ideal) (m ((c : Thread nD τ).loc main_arg2)) (ix1 p) :=
  (congrFun (first_counts m ρ c) (ix2 p (0 : Fin 1))).trans (LibKeepdims.shapeCast_a_a1_apply _ _ p 0)

/-- The bias row at (0, f) is the bias at f. -/
theorem first_bias_at (f : Fin 256) : V1 m ρ c main_v18 (ix2 (0 : Fin 1) f) = (m ((c : Thread nD τ).loc main_arg6)) (ix1 f) :=
  (congrFun (first_bias m ρ c) (ix2 (0 : Fin 1) f)).trans (shapeCast_a_1a_apply _ _ 0 f)

/-! ## The first call's result is the reference's first layer -/

theorem first_result :
    (dat0 (V1 m ρ) c).arrAt 6 cfg0.N = val_main_v28 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  rw [First.final (V1 m ρ) c, Cert.ReferenceIdeal.Layers.first_layer]
  show layerReluArr (n := 22528) (V1 m ρ c main_v9) (fun p => V1 m ρ c main_v14 (ix2 p (0 : Fin 1))) (V1 m ρ c main_v15)
      (V1 m ρ c main_v16) (fun g => V1 m ρ c main_v18 (ix2 (0 : Fin 1) g)) (V1 m ρ c main_v17) = _
  rw [first_summed, first_own, first_left, first_right,
    show (fun p : Fin 22528 => V1 m ρ c main_v14 (ix2 p (0 : Fin 1))) = fun p => val_main_v14 (F := Ideal) (m ((c : Thread nD τ).loc main_arg2)) (ix1 p)
      from funext (first_counts_at m ρ c),
    show (fun g : Fin 256 => V1 m ρ c main_v18 (ix2 (0 : Fin 1) g)) = fun g => (m ((c : Thread nD τ).loc main_arg6)) (ix1 g)
      from funext (first_bias_at m ρ c)]

/-- After the first call its result buffer holds the reference's first layer. -/
theorem mid_result : W2 m ρ c (Proc.devRef .tc main_v19) = val_main_v28 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) :=
  (W2_arr m ρ c 6).trans (first_result m ρ c)

/-! ## The arguments are untouched by the first stretch and the first call -/

theorem mid_arg3 : W2 m ρ c (Proc.devRef .tc main_arg3) = (m ((c : Thread nD τ).loc main_arg3)) := by
  refine (W2_of_ne m ρ c main_arg3 (by decide)).trans ?_
  show StableHlo.after hostOps0 (W0 m ρ c) (Proc.devRef .tc main_arg3) = _
  after_results
theorem mid_arg4 : W2 m ρ c (Proc.devRef .tc main_arg4) = (m ((c : Thread nD τ).loc main_arg4)) := by
  refine (W2_of_ne m ρ c main_arg4 (by decide)).trans ?_
  show StableHlo.after hostOps0 (W0 m ρ c) (Proc.devRef .tc main_arg4) = _
  after_results
theorem mid_arg8 : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results
theorem mid_arg9 : W2 m ρ c (Proc.devRef .tc main_arg9) = (m ((c : Thread nD τ).loc main_arg9)) := by
  refine (W2_of_ne m ρ c main_arg9 (by decide)).trans ?_
  show StableHlo.after hostOps0 (W0 m ρ c) (Proc.devRef .tc main_arg9) = _
  after_results
theorem mid_arg10 : W2 m ρ c (Proc.devRef .tc main_arg10) = (m ((c : Thread nD τ).loc main_arg10)) := by
  refine (W2_of_ne m ρ c main_arg10 (by decide)).trans ?_
  show StableHlo.after hostOps0 (W0 m ρ c) (Proc.devRef .tc main_arg10) = _
  after_results

/-! ## What the second call is entered with -/

/-- The summed features: the first layer gathered along src1 and scatter-added along dst1. -/
theorem second_summed : V3 m ρ c main_v29 = val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps1 (W2 m ρ c) (Proc.devRef .tc main_v29) = _
  generalize hZ : val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) = Z
  after_results
  rw [mid_result, mid_arg3, mid_arg4]
  subst hZ
  rfl

/-- The counts, as a column: ones scatter-added along dst1, recast. -/
theorem second_counts :
    V3 m ρ c main_v34 = shapeCast S2048x1 (val_main_v43 (F := Ideal) (m ((c : Thread nD τ).loc main_arg4))) shapeCasts_S2048_S2048x1 := by
  show StableHlo.after hostOps1 (W2 m ρ c) (Proc.devRef .tc main_v34) = _
  after_results
  rw [mid_arg4]
  rfl

/-- The nodes' own features: the leading rows of the first layer. -/
theorem second_own : V3 m ρ c main_v35 = val_main_v29 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) := by
  show StableHlo.after hostOps1 (W2 m ρ c) (Proc.devRef .tc main_v35) = _
  after_results
  rw [mid_result]
  rfl

/-- The left weights, transposed. -/
theorem second_left : V3 m ρ c main_v36 = val_main_v49 (F := Ideal) (m ((c : Thread nD τ).loc main_arg8)) := by
  show StableHlo.after hostOps1 (W2 m ρ c) (Proc.devRef .tc main_v36) = _
  after_results
  rw [mid_arg8]
  rfl

/-- The right weights, transposed. -/
theorem second_right : V3 m ρ c main_v37 = val_main_v54 (F := Ideal) (m ((c : Thread nD τ).loc main_arg10)) := by
  show StableHlo.after hostOps1 (W2 m ρ c) (Proc.devRef .tc main_v37) = _
  after_results
  rw [mid_arg10]
  rfl

/-- The bias, as a row. -/
theorem second_bias : V3 m ρ c main_v38 = shapeCast S1x256 (m ((c : Thread nD τ).loc main_arg9)) shapeCasts_S256_S1x256 := by
  show StableHlo.after hostOps1 (W2 m ρ c) (Proc.devRef .tc main_v38) = _
  after_results
  rw [mid_arg9]
  rfl

theorem second_counts_at (p : Fin 2048) :
    V3 m ρ c main_v34 (ix2 p (0 : Fin 1)) = val_main_v43 (F := Ideal) (m ((c : Thread nD τ).loc main_arg4)) (ix1 p) :=
  (congrFun (second_counts m ρ c) (ix2 p (0 : Fin 1))).trans (LibKeepdims.shapeCast_a_a1_apply _ _ p 0)

theorem second_bias_at (f : Fin 256) : V3 m ρ c main_v38 (ix2 (0 : Fin 1) f) = (m ((c : Thread nD τ).loc main_arg9)) (ix1 f) :=
  (congrFun (second_bias m ρ c) (ix2 (0 : Fin 1) f)).trans (shapeCast_a_1a_apply _ _ 0 f)

/-! ## The second call's result is the reference's result -/

theorem second_result :
    (dat1 (V3 m ρ) c).arrAt 6 cfg1.N = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Second.final (V3 m ρ) c, Cert.ReferenceIdeal.Layers.second_layer]
  show layerArr (n := 2048) (V3 m ρ c main_v29) (fun p => V3 m ρ c main_v34 (ix2 p (0 : Fin 1))) (V3 m ρ c main_v35)
      (V3 m ρ c main_v36) (fun g => V3 m ρ c main_v38 (ix2 (0 : Fin 1) g)) (V3 m ρ c main_v37) = _
  rw [second_summed, second_own, second_left, second_right,
    show (fun p : Fin 2048 => V3 m ρ c main_v34 (ix2 p (0 : Fin 1))) = fun p => val_main_v43 (F := Ideal) (m ((c : Thread nD τ).loc main_arg4)) (ix1 p)
      from funext (second_counts_at m ρ c),
    show (fun g : Fin 256 => V3 m ρ c main_v38 (ix2 (0 : Fin 1) g)) = fun g => (m ((c : Thread nD τ).loc main_arg9)) (ix1 g)
      from funext (second_bias_at m ρ c)]

end Cert.KernelIdeal.Glue

end
-- ==== Proof.lean ====
/-
  A two-layer neighbour-mean network (GraphSAGE): the kernel against its reference, on the extended reals.

  Each layer gathers source rows along an index vector, scatter-adds them and a vector of ones along a second index
  vector (the summed neighbour features and the neighbour counts of each target node), and then computes, for target row
  p and output feature f,

      ( Σ_d (summed(p, d) / max(cnt(p), 1)) · Wl(f, d) ) + bl(f) + Σ_d x_tgt(p, d) · Wr(f, d),

  the first layer followed by max(·, 0).  The reference does all of it on the host.  The kernel leaves the gather and the
  scatter-additions on the host, operation for operation as the reference has them, and runs the rest of each layer
  as one call over blocks of 1024 rows: it multiplies the sum by 1 / max(cnt, 1) where the reference divides by
  max(cnt, 1), narrows the factors of the two matrix products to a shorter float format first, and adds the bias last.

  On the extended reals the narrowing is the identity; max(cnt, 1) is at least one and so never zero, whence both the
  quotient by it and the product with one over it are the product with its inverse; a matrix product into a zero
  accumulator and the host's contraction are the same inner product; and the three summands are regrouped by
  commutativity and associativity of addition.  None of this needs the inputs finite: the precondition is not opened.

  The modules: SageLayer (the layer as a function), KernelBody (a grid step's stored block is the layer of its loaded
  blocks), FirstCall / SecondCall (each call's result array is the layer of the whole arrays it was entered with: the
  blocks tile the rows), KernelRun (the run, with the result buffer named), HostLayer and RefLayers (the reference's
  two layers are the layer), HostGlue (the arrays each call is entered with are the reference's own stages, so the
  kernel's result is the reference's function of the arguments).
-/
import proofs.«127859_j40862318854556_2_alg».proof.Defs
import proofs.«127859_j40862318854556_2_alg».proof.Proof.Gen.Kernel
import proofs.«127859_j40862318854556_2_alg».proof.Proof.Gen.Kernel.Skeleton
import proofs.«127859_j40862318854556_2_alg».proof.Proof.Gen.Kernel.Launch
import proofs.«127859_j40862318854556_2_alg».proof.Proof.Gen.Kernel.Points
import proofs.«127859_j40862318854556_2_alg».proof.Proof.Gen.Kernel.Frame
import proofs.«127859_j40862318854556_2_alg».proof.Proof.Gen.KernelIdeal
import proofs.«127859_j40862318854556_2_alg».proof.Proof.Gen.KernelIdeal.Skeleton
import proofs.«127859_j40862318854556_2_alg».proof.Proof.Gen.KernelIdeal.Launch
import proofs.«127859_j40862318854556_2_alg».proof.Proof.Gen.KernelIdeal.Points
import proofs.«127859_j40862318854556_2_alg».proof.Proof.Gen.KernelIdeal.Frame
import proofs.«127859_j40862318854556_2_alg».proof.Proof.Gen.ReferenceIdeal
import proofs.«127859_j40862318854556_2_alg».proof.Proof.Gen.Pre_finite_inputs
import proofs.«127859_j40862318854556_2_alg».proof.Proof.Gen.ReferenceIdeal.Run
import proofs.«127859_j40862318854556_2_alg».proof.Proof.Gen.ReferenceIdeal.Read
import proofs.«127859_j40862318854556_2_alg».proof.Proof.KernelRun
import proofs.«127859_j40862318854556_2_alg».proof.Proof.HostGlue
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the idealized reference: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- From memories that agree on the arguments both idealized programs end with the same result: the reference's
    function of the arguments. -/
theorem algebraic : Cert.algebraic_KernelIdeal_ReferenceIdeal := by
  intro m ρ m' ρ' _ hagree
  refine ⟨fun c => Cert.ReferenceIdeal.Read.val_main_v56 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Glue.second_result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v56_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
